-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S256x256 : Shape := ⟨2, ![256, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S4096x128 .f32) (main_arg1 : FVec F S256x256 .f32) (main_arg2 : FVec F S256 .f32) (main_arg3 : FVec F S256x1 .f32) (main_arg4 : FVec F S1 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x1 .f32 := Host.absf main_arg3
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_arg4 main_v13 main_v16
-- ==== Kernel.lean ====
abbrev S4096x128 : Shape := ⟨2, ![4096, 128]⟩
abbrev S256x256 : Shape := ⟨2, ![256, 256]⟩
abbrev S256 : Shape := ⟨1, ![256]⟩
abbrev S256x1 : Shape := ⟨2, ![256, 1]⟩
abbrev S1 : Shape := ⟨1, ![1]⟩
abbrev S1x256 : Shape := ⟨2, ![1, 256]⟩
abbrev S1x1 : Shape := ⟨2, ![1, 1]⟩
abbrev S256x128 : Shape := ⟨2, ![256, 128]⟩
abbrev S128x256 : Shape := ⟨2, ![128, 256]⟩
abbrev S256x16 : Shape := ⟨2, ![256, 16]⟩
abbrev S16x256 : Shape := ⟨2, ![16, 256]⟩
abbrev S256x1x256 : Shape := ⟨3, ![256, 1, 256]⟩
abbrev S256x16x1 : Shape := ⟨3, ![256, 16, 1]⟩
abbrev S1x16x256 : Shape := ⟨3, ![1, 16, 256]⟩
abbrev S256x16x256 : Shape := ⟨3, ![256, 16, 256]⟩
abbrev S1x1x256 : Shape := ⟨3, ![1, 1, 256]⟩
abbrev S_ : Shape := ⟨0, ![]⟩
abbrev S4096x1 : Shape := ⟨2, ![4096, 1]⟩
abbrev S4096x129 : Shape := ⟨2, ![4096, 129]⟩

abbrev nBuf : Space → Nat
  | .hbm => 11
  | .vmem => 9
  | .smem => 0
  | _ => 0

abbrev bufTy : (tb : Table) → Fin (tcTables nBuf tb) → BufTy
  | .hbm, ⟨0, _⟩ => ⟨S4096x128, .f32⟩
  | .hbm, ⟨1, _⟩ => ⟨S256x256, .f32⟩
  | .hbm, ⟨2, _⟩ => ⟨S256, .f32⟩
  | .hbm, ⟨3, _⟩ => ⟨S256x1, .f32⟩
  | .hbm, ⟨4, _⟩ => ⟨S1, .f32⟩
  | .hbm, ⟨5, _⟩ => ⟨S1x256, .f32⟩
  | .hbm, ⟨6, _⟩ => ⟨S1x1, .f32⟩
  | .hbm, ⟨7, _⟩ => ⟨S4096x128, .f32⟩
  | .hbm, ⟨8, _⟩ => ⟨S_, .f32⟩
  | .hbm, ⟨9, _⟩ => ⟨S4096x1, .f32⟩
  | .hbm, ⟨10, _⟩ => ⟨S4096x129, .f32⟩
  | .local _ .vmem, ⟨0, _⟩ => ⟨S256x128, .f32⟩
  | .local _ .vmem, ⟨1, _⟩ => ⟨S256x128, .f32⟩
  | .local _ .vmem, ⟨2, _⟩ => ⟨S256x256, .f32⟩
  | .local _ .vmem, ⟨3, _⟩ => ⟨S1x256, .f32⟩
  | .local _ .vmem, ⟨4, _⟩ => ⟨S256x1, .f32⟩
  | .local _ .vmem, ⟨5, _⟩ => ⟨S1x1, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S256_S1x256 : S256.ShapeCasts S1x256
  shapeCasts_S1_S1x1 : S1.ShapeCasts S1x1
  inb_S256x128_S256x128_0_0 : ∀ a, (![0, 0] : Fin 2 → Nat) a + S256x128.size a ≤ S256x128.size a
  h_S256x128 : 0 < S256x128.numel
  inb_S256x256_S256x256_0_0 : ∀ a, (![0, 0] : Fin 2 → Nat) a + S256x256.size a ≤ S256x256.size a
  h_S256x256 : 0 < S256x256.numel
  slices_S256x256_o0_0_S128x256 : S256x256.Slices ![0, 0] S128x256
  slices_S256x256_o128_0_S128x256 : S256x256.Slices ![128, 0] S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S256x1_S256x1_0_0 : ∀ a, (![0, 0] : Fin 2 → Nat) a + S256x1.size a ≤ S256x1.size a
  h_S256x1 : 0 < S256x1.numel
  shapeCasts_S256x1_S256 : S256x1.ShapeCasts S256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  bitsLt_bf16_f32 : FTy.bits .bf16 < FTy.bits .f32
  broadcasts_S1x256_S128x256 : S1x256.Broadcasts S128x256
  slices_S256x128_o0_0_S256x16 : S256x128.Slices ![0, 0] S256x16
  slices_S128x256_o0_0_S16x256 : S128x256.Slices ![0, 0] S16x256
  shapeCasts_S256x256_S256x1x256 : S256x256.ShapeCasts S256x1x256
  shapeCasts_S256x16_S256x16x1 : S256x16.ShapeCasts S256x16x1
  shapeCasts_S16x256_S1x16x256 : S16x256.ShapeCasts S1x16x256
  broadcasts_S256x16x1_S256x16x256 : S256x16x1.Broadcasts S256x16x256
  broadcasts_S1x16x256_S256x16x256 : S1x16x256.Broadcasts S256x16x256
  broadcasts_S256x1x256_S256x16x256 : S256x1x256.Broadcasts S256x16x256
  shapeCasts_S256_S1x1x256 : S256.ShapeCasts S1x1x256
  broadcasts_S1x1x256_S256x16x256 : S1x1x256.Broadcasts S256x16x256
  reduces_S256x16x256_S256x16 : S256x16x256.Reduces [2] S256x16
  broadcasts_S1x1_S256x16 : S1x1.Broadcasts S256x16
  inb_S256x128_S256x16_0_0 : ∀ a, (![0, 0] : Fin 2 → Nat) a + S256x16.size a ≤ S256x128.size a
  h_S256x16 : 0 < S256x16.numel
  shapeCasts_S256x16_S256x16 : S256x16.ShapeCasts S256x16
  slices_S256x128_o0_16_S256x16 : S256x128.Slices ![0, 16] S256x16
  slices_S128x256_o16_0_S16x256 : S128x256.Slices ![16, 0] S16x256
  inb_S256x128_S256x16_0_16 : ∀ a, (![0, 16] : Fin 2 → Nat) a + S256x16.size a ≤ S256x128.size a
  slices_S256x128_o0_32_S256x16 : S256x128.Slices ![0, 32] S256x16
  slices_S128x256_o32_0_S16x256 : S128x256.Slices ![32, 0] S16x256
  inb_S256x128_S256x16_0_32 : ∀ a, (![0, 32] : Fin 2 → Nat) a + S256x16.size a ≤ S256x128.size a
  slices_S256x128_o0_48_S256x16 : S256x128.Slices ![0, 48] S256x16
  slices_S128x256_o48_0_S16x256 : S128x256.Slices ![48, 0] S16x256
  inb_S256x128_S256x16_0_48 : ∀ a, (![0, 48] : Fin 2 → Nat) a + S256x16.size a ≤ S256x128.size a
  slices_S256x128_o0_64_S256x16 : S256x128.Slices ![0, 64] S256x16
  slices_S128x256_o64_0_S16x256 : S128x256.Slices ![64, 0] S16x256
  inb_S256x128_S256x16_0_64 : ∀ a, (![0, 64] : Fin 2 → Nat) a + S256x16.size a ≤ S256x128.size a
  slices_S256x128_o0_80_S256x16 : S256x128.Slices ![0, 80] S256x16
  slices_S128x256_o80_0_S16x256 : S128x256.Slices ![80, 0] S16x256
  inb_S256x128_S256x16_0_80 : ∀ a, (![0, 80] : Fin 2 → Nat) a + S256x16.size a ≤ S256x128.size a
  slices_S256x128_o0_96_S256x16 : S256x128.Slices ![0, 96] S256x16
  slices_S128x256_o96_0_S16x256 : S128x256.Slices ![96, 0] S16x256
  inb_S256x128_S256x16_0_96 : ∀ a, (![0, 96] : Fin 2 → Nat) a + S256x16.size a ≤ S256x128.size a
  slices_S256x128_o0_112_S256x16 : S256x128.Slices ![0, 112] S256x16
  slices_S128x256_o112_0_S16x256 : S128x256.Slices ![112, 0] S16x256
  inb_S256x128_S256x16_0_112 : ∀ a, (![0, 112] : Fin 2 → Nat) a + S256x16.size a ≤ S256x128.size a
  bcast_S_S4096x1 : S_.BroadcastsInDim S4096x1 (![] : Fin 0 → Fin S4096x1.rank)
  concatenates_S4096x1_S4096x128_S4096x129_d1 : Shape.Concatenates [S4096x1, S4096x128] S4096x129 1
  dot_S256x128_S128x256_S256x256_1_0_0_1_n_n_wf : DotDims.WF S256x128 S128x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S4096x128.size a
  hwx0_0 : ∀ i : grid0.Coords, EltTy.bits .f32 = 32 ∨ (Rect.block (s := S4096x128) S256x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S256x1.size a
  hwx0_3 : ∀ i : grid0.Coords, EltTy.bits .f32 = 32 ∨ (Rect.block (s := S256x1) S256x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S4096x128.size a
  hwx0_5 : ∀ i : grid0.Coords, EltTy.bits .f32 = 32 ∨ (Rect.block (s := S4096x128) S256x128.size (cc0_transform_5 i) (hinb0_5 i)).WholeWords (EltTy.packing .f32)

variable [Facts₀]

def dot_S256x128_S128x256_S256x256_1_0_0_1_n_n : DotDims S256x128 S128x256 S256x256 where
  lhsContracting := [1]
  rhsContracting := [0]
  lhsNonContracting := [0]
  rhsNonContracting := [1]
  lhsBatch := []
  rhsBatch := []
  wf := dot_S256x128_S128x256_S256x256_1_0_0_1_n_n_wf

abbrev win0_0 : Pipeline.Window sig grid0 :=
  Pipeline.Window.ofSpec (Memref.whole main_arg0) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S256x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x128 : Shape := ⟨2, ![4096, 128]⟩
abbrev S256x256 : Shape := ⟨2, ![256, 256]⟩
abbrev S256 : Shape := ⟨1, ![256]⟩
abbrev S256x1 : Shape := ⟨2, ![256, 1]⟩
abbrev S1 : Shape := ⟨1, ![1]⟩
abbrev S128x128 : Shape := ⟨2, ![128, 128]⟩
abbrev S_ : Shape := ⟨0, ![]⟩
abbrev S1x4096x128 : Shape := ⟨3, ![1, 4096, 128]⟩
abbrev S128x1x128 : Shape := ⟨3, ![128, 1, 128]⟩
abbrev S128x4096x128 : Shape := ⟨3, ![128, 4096, 128]⟩
abbrev S128x256 : Shape := ⟨2, ![128, 256]⟩
abbrev S128x4096x256 : Shape := ⟨3, ![128, 4096, 256]⟩
abbrev S128x1x256 : Shape := ⟨3, ![128, 1, 256]⟩
abbrev S1x1x256 : Shape := ⟨3, ![1, 1, 256]⟩
abbrev S128x4096x1 : Shape := ⟨3, ![128, 4096, 1]⟩
abbrev S128x4096 : Shape := ⟨2, ![128, 4096]⟩
abbrev S4096x1 : Shape := ⟨2, ![4096, 1]⟩
abbrev S4096x129 : Shape := ⟨2, ![4096, 129]⟩

abbrev nBuf : Space → Nat
  | .hbm => 53
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S256x256, .f32⟩
  | .hbm, ⟨2, _⟩ => ⟨S256, .f32⟩
  | .hbm, ⟨3, _⟩ => ⟨S256x1, .f32⟩
  | .hbm, ⟨4, _⟩ => ⟨S1, .f32⟩
  | .hbm, ⟨5, _⟩ => ⟨S128x128, .i32⟩
  | .hbm, ⟨6, _⟩ => ⟨S128x128, .i32⟩
  | .hbm, ⟨7, _⟩ => ⟨S_, .i32⟩
  | .hbm, ⟨8, _⟩ => ⟨S128x128, .i32⟩
  | .hbm, ⟨9, _⟩ => ⟨S128x128, .i32⟩
  | .hbm, ⟨10, _⟩ => ⟨S128x128, .i1⟩
  | .hbm, ⟨11, _⟩ => ⟨S128x128, .f32⟩
  | .hbm, ⟨12, _⟩ => ⟨S_, .f32⟩
  | .hbm, ⟨13, _⟩ => ⟨S128x128, .f32⟩
  | .hbm, ⟨14, _⟩ => ⟨S128x128, .f32⟩
  | .hbm, ⟨15, _⟩ => ⟨S1x4096x128, .f32⟩
  | .hbm, ⟨16, _⟩ => ⟨S128x1x128, .f32⟩
  | .hbm, ⟨17, _⟩ => ⟨S128x4096x128, .f32⟩
  | .hbm, ⟨18, _⟩ => ⟨S128x4096x128, .f32⟩
  | .hbm, ⟨19, _⟩ => ⟨S128x4096x128, .f32⟩
  | .hbm, ⟨20, _⟩ => ⟨S128x256, .f32⟩
  | .hbm, ⟨21, _⟩ => ⟨S128x4096x256, .f32⟩
  | .hbm, ⟨22, _⟩ => ⟨S128x128, .i32⟩
  | .hbm, ⟨23, _⟩ => ⟨S128x128, .i32⟩
  | .hbm, ⟨24, _⟩ => ⟨S_, .i32⟩
  | .hbm, ⟨25, _⟩ => ⟨S128x128, .i32⟩
  | .hbm, ⟨26, _⟩ => ⟨S128x128, .i32⟩
  | .hbm, ⟨27, _⟩ => ⟨S128x128, .i1⟩
  | .hbm, ⟨28, _⟩ => ⟨S128x128, .f32⟩
  | .hbm, ⟨29, _⟩ => ⟨S128x256, .f32⟩
  | .hbm, ⟨30, _⟩ => ⟨S128x256, .f32⟩
  | .hbm, ⟨31, _⟩ => ⟨S128x1x256, .f32⟩
  | .hbm, ⟨32, _⟩ => ⟨S128x4096x256, .f32⟩
  | .hbm, ⟨33, _⟩ => ⟨S128x4096x256, .f32⟩
  | .hbm, ⟨34, _⟩ => ⟨S1x1x256, .f32⟩
  | .hbm, ⟨35, _⟩ => ⟨S128x4096x256, .f32⟩
  | .hbm, ⟨36, _⟩ => ⟨S128x4096x256, .f32⟩
  | .hbm, ⟨37, _⟩ => ⟨S_, .f32⟩
  | .hbm, ⟨38, _⟩ => ⟨S128x4096x256, .f32⟩
  | .hbm, ⟨39, _⟩ => ⟨S128x4096x256, .f32⟩
  | .hbm, ⟨40, _⟩ => ⟨S128x4096x1, .f32⟩
  | .hbm, ⟨41, _⟩ => ⟨S128x4096, .f32⟩
  | .hbm, ⟨42, _⟩ => ⟨S_, .f32⟩
  | .hbm, ⟨43, _⟩ => ⟨S128x4096, .f32⟩
  | .hbm, ⟨44, _⟩ => ⟨S128x4096, .f32⟩
  | .hbm, ⟨45, _⟩ => ⟨S4096x128, .f32⟩
  | .hbm, ⟨46, _⟩ => ⟨S_, .f32⟩
  | .hbm, ⟨47, _⟩ => ⟨S4096x128, .f32⟩
  | .hbm, ⟨48, _⟩ => ⟨S4096x128, .f32⟩
  | .hbm, ⟨49, _⟩ => ⟨S4096x128, .f32⟩
  | .hbm, ⟨50, _⟩ => ⟨S_, .f32⟩
  | .hbm, ⟨51, _⟩ => ⟨S4096x1, .f32⟩
  | .hbm, ⟨52, _⟩ => ⟨S4096x129, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_call0_cst : Ref sig .tc := ⟨.hbm, 37, rfl⟩
abbrev main_call0_v0 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_1 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_2 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]

class Facts₀ : Prop where
  bcast_S_S128x128 : S_.BroadcastsInDim S128x128 (![] : Fin 0 → Fin S128x128.rank)
  bcast_S4096x128_S1x4096x128_1_2 : S4096x128.BroadcastsInDim S1x4096x128 (![1, 2] : Fin 2 → Fin S1x4096x128.rank)
  bcast_S128x128_S128x1x128_0_2 : S128x128.BroadcastsInDim S128x1x128 (![0, 2] : Fin 2 → Fin S128x1x128.rank)
  bcast_S1x4096x128_S128x4096x128_0_1_2 : S1x4096x128.BroadcastsInDim S128x4096x128 (![0, 1, 2] : Fin 3 → Fin S128x4096x128.rank)
  bcast_S128x1x128_S128x4096x128_0_1_2 : S128x1x128.BroadcastsInDim S128x4096x128 (![0, 1, 2] : Fin 3 → Fin S128x4096x128.rank)
  slices_S256x256_S128x256_0_0 : S256x256.Slices ![0, 0] S128x256
  slices_S256x256_S128x256_128_0 : S256x256.Slices ![128, 0] S128x256
  bcast_S128x256_S128x1x256_0_2 : S128x256.BroadcastsInDim S128x1x256 (![0, 2] : Fin 2 → Fin S128x1x256.rank)
  bcast_S128x1x256_S128x4096x256_0_1_2 : S128x1x256.BroadcastsInDim S128x4096x256 (![0, 1, 2] : Fin 3 → Fin S128x4096x256.rank)
  bcast_S256_S1x1x256_2 : S256.BroadcastsInDim S1x1x256 (![2] : Fin 1 → Fin S1x1x256.rank)
  bcast_S1x1x256_S128x4096x256_0_1_2 : S1x1x256.BroadcastsInDim S128x4096x256 (![0, 1, 2] : Fin 3 → Fin S128x4096x256.rank)
  bcast_S_S128x4096x256 : S_.BroadcastsInDim S128x4096x256 (![] : Fin 0 → Fin S128x4096x256.rank)
  shapeCasts_S128x4096x1_S128x4096 : S128x4096x1.ShapeCasts S128x4096
  shapeCasts_S1_S_ : S1.ShapeCasts S_
  bcast_S_S128x4096 : S_.BroadcastsInDim S128x4096 (![] : Fin 0 → Fin S128x4096.rank)
  transposes_S128x4096_S4096x128_1_0 : S128x4096.Transposes [1, 0] S4096x128
  bcast_S_S4096x128 : S_.BroadcastsInDim S4096x128 (![] : Fin 0 → Fin S4096x128.rank)
  bcast_S_S4096x1 : S_.BroadcastsInDim S4096x1 (![] : Fin 0 → Fin S4096x1.rank)
  concatenates_S4096x1_S4096x128_S4096x129_d1 : Shape.Concatenates [S4096x1, S4096x128] S4096x129 1
  dot_S128x4096x128_S128x256_S128x4096x256_2_0_01_1_n_n_wf : DotDims.WF S128x4096x128 S128x256 S128x4096x256 [2] [0] [0, 1] [1] [] []
  dot_S128x128_S128x256_S128x256_1_0_0_1_n_n_wf : DotDims.WF S128x128 S128x256 S128x256 [1] [0] [0] [1] [] []
  dot_S128x4096x256_S256x1_S128x4096x1_2_0_01_1_n_n_wf : DotDims.WF S128x4096x256 S256x1 S128x4096x1 [2] [0] [0, 1] [1] [] []

variable [Facts₀]

def dot_S128x4096x128_S128x256_S128x4096x256_2_0_01_1_n_n : DotDims S128x4096x128 S128x256 S128x4096x256 where
  lhsContracting := [2]
  rhsContracting := [0]
  lhsNonContracting := [0, 1]
  rhsNonContracting := [1]
  lhsBatch := []
  rhsBatch := []
  wf := dot_S128x4096x128_S128x256_S128x4096x256_2_0_01_1_n_n_wf
def dot_S128x128_S128x256_S128x256_1_0_0_1_n_n : DotDims S128x128 S128x256 S128x256 where
  lhsContracting := [1]
  rhsContracting := [0]
  lhsNonContracting := [0]
  rhsNonContracting := [1]
  lhsBatch := []
  rhsBatch := []
  wf := dot_S128x128_S128x256_S128x256_1_0_0_1_n_n_wf
def dot_S128x4096x256_S256x1_S128x4096x1_2_0_01_1_n_n : DotDims S128x4096x256 S256x1 S128x4096x1 where
  lhsContracting := [2]
  rhsContracting := [0]
  lhsNonContracting := [0, 1]
  rhsNonContracting := [1]
  lhsBatch := []
  rhsBatch := []
  wf := dot_S128x4096x256_S256x1_S128x4096x1_2_0_01_1_n_n_wf

class Facts : Prop extends Facts₀ where

variable [Facts]
-- ==== Proof.LibRank3.lean ====
/-
  Rank-three blocks `[a, b, c]` read at an index written by its three coordinates, at any extents.

  * merging the two trailing axes, `[a, b, c] → [a, b·c]`, and splitting them back: the merged column is `q·c + r`;
  * merging the two leading axes, `[a, b, c] → [a·b, c]`, and splitting them back: the merged row is `p·b + q`;
  * a unit last axis added or dropped, `[a, b] ↔ [a, b, 1]`;
  * a column `[a, b, 1]` broadcast along the last axis, and a row `[1, 1, c]` broadcast along the first two;
  * a vector `[c]` as a row `[1, 1, c]`;
  * a unit-stride slice of the last axis;
  * three blocks concatenated along the last axis: the index's last coordinate falls in one of the three spans.
-/
import Idealize.ShloMosaic.Lib.ValueLayout
import Idealize.ShloMosaic.Lib.ValueIdx
import Idealize.ShloMosaic.Lib.Pipeline.Value
import Idealize.ShloMosaic.PureOps.Ideal.Laws

noncomputable section

namespace Cert.LibRank3

open Idealize.ShloMosaic Idealize.ShloMosaic.ValueIdx

variable {α : Type}

/-- `[a, b, c] → [a, d]`, `d = b·c`: column `q·c + r` of row `p` is the block at `(p, q, r)`. -/
theorem mergeTail_apply {a b c d : ℕ} (x : (⟨3, ![a, b, c]⟩ : Shape).Idx → α)
    (h : (⟨3, ![a, b, c]⟩ : Shape).ShapeCasts ⟨2, ![a, d]⟩) (hd : d = b * c)
    (p : Fin a) (q : Fin b) (r : Fin c) (col : Fin d) (hcol : col.val = q.val * c + r.val) :
    shapeCast ⟨2, ![a, d]⟩ x h (ix2 p col) = x (ix3 p q r) :=
  shapeCast_apply x h _ _ (by
    rw [Shape.rowMajor_val_two, Shape.rowMajor_val_three]
    show (p.val * b + q.val) * c + r.val = p.val * d + col.val
    rw [hcol, hd]; ring)

/-- `[a, d] → [a, b, c]`, `d = b·c`: the block at `(p, q, r)` is column `q·c + r` of row `p`. -/
theorem splitTail_apply {a b c d : ℕ} (y : (⟨2, ![a, d]⟩ : Shape).Idx → α)
    (h : (⟨2, ![a, d]⟩ : Shape).ShapeCasts ⟨3, ![a, b, c]⟩) (hd : d = b * c)
    (p : Fin a) (q : Fin b) (r : Fin c) (col : Fin d) (hcol : col.val = q.val * c + r.val) :
    shapeCast ⟨3, ![a, b, c]⟩ y h (ix3 p q r) = y (ix2 p col) :=
  shapeCast_apply y h _ _ (by
    rw [Shape.rowMajor_val_two, Shape.rowMajor_val_three]
    show p.val * d + col.val = (p.val * b + q.val) * c + r.val
    rw [hcol, hd]; ring)

/-- `[a, b, c] → [e, c]`, `e = a·b`: row `p·b + q` is the block's `(p, q)` fibre. -/
theorem mergeHead_apply {a b c e : ℕ} (x : (⟨3, ![a, b, c]⟩ : Shape).Idx → α)
    (h : (⟨3, ![a, b, c]⟩ : Shape).ShapeCasts ⟨2, ![e, c]⟩)
    (p : Fin a) (q : Fin b) (r : Fin c) (row : Fin e) (hrow : row.val = p.val * b + q.val) :
    shapeCast ⟨2, ![e, c]⟩ x h (ix2 row r) = x (ix3 p q r) :=
  shapeCast_apply x h _ _ (by
    rw [Shape.rowMajor_val_two, Shape.rowMajor_val_three]
    show (p.val * b + q.val) * c + r.val = row.val * c + r.val
    rw [hrow])

/-- `[e, c] → [a, b, c]`, `e = a·b`: the block at `(p, q, r)` is row `p·b + q` at `r`. -/
theorem splitHead_apply {a b c e : ℕ} (y : (⟨2, ![e, c]⟩ : Shape).Idx → α)
    (h : (⟨2, ![e, c]⟩ : Shape).ShapeCasts ⟨3, ![a, b, c]⟩)
    (p : Fin a) (q : Fin b) (r : Fin c) (row : Fin e) (hrow : row.val = p.val * b + q.val) :
    shapeCast ⟨3, ![a, b, c]⟩ y h (ix3 p q r) = y (ix2 row r) :=
  shapeCast_apply y h _ _ (by
    rw [Shape.rowMajor_val_two, Shape.rowMajor_val_three]
    show row.val * c + r.val = (p.val * b + q.val) * c + r.val
    rw [hrow])

/-- `[a, b] → [a, b, 1]`. -/
theorem addUnitLast_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    omega)

/-- A column `[a, b, 1]` broadcast to `[a, b, c]` reads the column at `(p, q)`. -/
theorem broadcastCol_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ =>
    show (0 : ℕ) = if (1 : ℕ) = 1 then 0 else r.val
    rw [if_pos rfl]

/-- A row `[1, 1, c]` broadcast to `[a, b, c]` reads the row at `r`. -/
theorem broadcastRow_apply {a b c : ℕ} (v : (⟨3, ![1, 1, c]⟩ : Shape).Idx → α)
    (h : (⟨3, ![1, 1, c]⟩ : Shape).Broadcasts ⟨3, ![a, b, c]⟩) (p : Fin a) (q : Fin b) (r : Fin c) :
    broadcastTo ⟨3, ![a, b, c]⟩ v h (ix3 p q r) = v (ix3 (0 : Fin 1) (0 : Fin 1) r) := by
  refine broadcastTo_apply v h (ix3 p q r) (ix3 (0 : Fin 1) (0 : Fin 1) r) fun ax => ?_
  match ax with
  | ⟨0, _⟩ =>
    show (0 : ℕ) = if (1 : ℕ) = 1 then 0 else p.val
    rw [if_pos rfl]
  | ⟨1, _⟩ =>
    show (0 : ℕ) = if (1 : ℕ) = 1 then 0 else q.val
    rw [if_pos rfl]
  | ⟨2, _⟩ =>
    show r.val = if c = 1 then 0 else r.val
    split
    · have := r.isLt; omega
    · rfl

/-- A vector `[c]` as a row `[1, 1, c]`. -/
theorem vecRow_apply {c : ℕ} (x : (⟨1, ![c]⟩ : Shape).Idx → α)
    (h : (⟨1, ![c]⟩ : Shape).ShapeCasts ⟨3, ![1, 1, c]⟩) (u v : Fin 1) (r : Fin c) :
    shapeCast ⟨3, ![1, 1, c]⟩ x h (ix3 u v r) = x (ix1 r) :=
  shapeCast_apply x h _ _ (by
    have hu : u.val = 0 := by omega
    have hv : v.val = 0 := by omega
    rw [Shape.rowMajor_val_one, Shape.rowMajor_val_three]
    show r.val = (u.val * 1 + v.val) * c + r.val
    rw [hu, hv]; simp)

/-- A row `[1, 1, c]` as a vector `[c]`. -/
theorem rowVec_apply {c : ℕ} (x : (⟨3, ![1, 1, c]⟩ : Shape).Idx → α)
    (h : (⟨3, ![1, 1, c]⟩ : Shape).ShapeCasts ⟨1, ![c]⟩) (r : Fin c) :
    shapeCast ⟨1, ![c]⟩ x h (ix1 r) = x (ix3 (0 : Fin 1) (0 : Fin 1) r) :=
  shapeCast_apply x h _ _ (by
    rw [Shape.rowMajor_val_one, Shape.rowMajor_val_three]
    show ((0 : ℕ) * 1 + 0) * c + r.val = r.val
    simp)

/-- A unit-stride slice of the last axis at offset `o`. -/
theorem sliceLast_apply {a b c c' : ℕ} (o : ℕ) (x : (⟨3, ![a, b, c]⟩ : Shape).Idx → α)
    (h : (⟨3, ![a, b, c]⟩ : Shape).Slices ![0, 0, o] ⟨3, ![a, b, c']⟩) (p : Fin a) (q : Fin b) (r : Fin c') (r' : Fin c)
    (hr : r'.val = o + r.val) :
    extractStridedSlice ⟨3, ![a, b, c']⟩ ![0, 0, o] x h (ix3 p q r) = x (ix3 p q r') :=
  extractStridedSlice_apply _ x h _ _ fun ax => by
    match ax with
    | ⟨0, _⟩ => show p.val = 0 + p.val; omega
    | ⟨1, _⟩ => show q.val = 0 + q.val; omega
    | ⟨2, _⟩ => exact hr

/-- A unit-stride slice of the first axis of `[m, 1, c]` at offset `o`, one row. -/
theorem sliceFirst_apply {m c : ℕ} (o : ℕ) (x : (⟨3, ![m, 1, c]⟩ : Shape).Idx → α)
    (h : (⟨3, ![m, 1, c]⟩ : Shape).Slices ![o, 0, 0] ⟨3, ![1, 1, c]⟩) (u v : Fin 1) (r : Fin c) (k : Fin m) (hk : k.val = o) :
    extractStridedSlice ⟨3, ![1, 1, c]⟩ ![o, 0, 0] x h (ix3 u v r) = x (ix3 k (0 : Fin 1) r) :=
  extractStridedSlice_apply _ x h _ _ fun ax => by
    have hu : u.val = 0 := by omega
    have hv : v.val = 0 := by omega
    match ax with
    | ⟨0, _⟩ => show k.val = o + u.val; omega
    | ⟨1, _⟩ => show (0 : ℕ) = 0 + v.val; omega
    | ⟨2, _⟩ => show r.val = 0 + r.val; omega

/-- Three `[a, b, c]` blocks concatenated along the last axis: a coordinate in the first span reads the first. -/
theorem concat3Last_apply0 {a b c ct : ℕ} (x0 x1 x2 : (⟨3, ![a, b, c]⟩ : Shape).Idx → α)
    (h : Shape.Concatenates [(⟨3, ![a, b, c]⟩ : Shape), ⟨3, ![a, b, c]⟩, ⟨3, ![a, b, c]⟩] ⟨3, ![a, b, ct]⟩ 2)
    (p : Fin a) (q : Fin b) (r : Fin c) (j : Fin ct) (hj : j.val = r.val) :
    concatenate ⟨3, ![a, b, ct]⟩ 2 [⟨_, x0⟩, ⟨_, x1⟩, ⟨_, x2⟩] h (ix3 p q j) = x0 (ix3 p q r) :=
  concatenate_apply_piece 2 [⟨_, x0⟩, ⟨_, x1⟩, ⟨_, x2⟩] h (ix3 p q j) 0 (by show (0 : ℕ) < 3; omega) _ x0 rfl rfl 0 rfl (ix3 p q r)
    (fun ax hax => by
      match ax with
      | ⟨0, _⟩ => rfl
      | ⟨1, _⟩ => rfl
      | ⟨2, _⟩ => exact absurd rfl hax)
    (by show 0 + r.val = j.val; omega)

theorem concat3Last_apply1 {a b c ct : ℕ} (x0 x1 x2 : (⟨3, ![a, b, c]⟩ : Shape).Idx → α)
    (h : Shape.Concatenates [(⟨3, ![a, b, c]⟩ : Shape), ⟨3, ![a, b, c]⟩, ⟨3, ![a, b, c]⟩] ⟨3, ![a, b, ct]⟩ 2)
    (p : Fin a) (q : Fin b) (r : Fin c) (j : Fin ct) (hj : j.val = c + r.val) :
    concatenate ⟨3, ![a, b, ct]⟩ 2 [⟨_, x0⟩, ⟨_, x1⟩, ⟨_, x2⟩] h (ix3 p q j) = x1 (ix3 p q r) :=
  concatenate_apply_piece 2 [⟨_, x0⟩, ⟨_, x1⟩, ⟨_, x2⟩] h (ix3 p q j) 1 (by show (1 : ℕ) < 3; omega) _ x1 rfl rfl c (by simp) (ix3 p q r)
    (fun ax hax => by
      match ax with
      | ⟨0, _⟩ => rfl
      | ⟨1, _⟩ => rfl
      | ⟨2, _⟩ => exact absurd rfl hax)
    (by show c + r.val = j.val; omega)

theorem concat3Last_apply2 {a b c ct : ℕ} (x0 x1 x2 : (⟨3, ![a, b, c]⟩ : Shape).Idx → α)
    (h : Shape.Concatenates [(⟨3, ![a, b, c]⟩ : Shape), ⟨3, ![a, b, c]⟩, ⟨3, ![a, b, c]⟩] ⟨3, ![a, b, ct]⟩ 2)
    (p : Fin a) (q : Fin b) (r : Fin c) (j : Fin ct) (hj : j.val = c + c + r.val) :
    concatenate ⟨3, ![a, b, ct]⟩ 2 [⟨_, x0⟩, ⟨_, x1⟩, ⟨_, x2⟩] h (ix3 p q j) = x2 (ix3 p q r) :=
  concatenate_apply_piece 2 [⟨_, x0⟩, ⟨_, x1⟩, ⟨_, x2⟩] h (ix3 p q j) 2 (by show (2 : ℕ) < 3; omega) _ x2 rfl rfl (c + c) (by simp) (ix3 p q r)
    (fun ax hax => by
      match ax with
      | ⟨0, _⟩ => rfl
      | ⟨1, _⟩ => rfl
      | ⟨2, _⟩ => exact absurd rfl hax)
    (by show c + c + r.val = j.val; omega)

/-- Six `[a, b, c]` blocks concatenated along the last axis: the index's last coordinate falls in one of six spans. -/
theorem concat6Last_apply0 {a b c ct : ℕ} (x0 x1 x2 x3 x4 x5 : (⟨3, ![a, b, c]⟩ : Shape).Idx → α)
    (h : Shape.Concatenates [(⟨3, ![a, b, c]⟩ : Shape), ⟨3, ![a, b, c]⟩, ⟨3, ![a, b, c]⟩, ⟨3, ![a, b, c]⟩, ⟨3, ![a, b, c]⟩, ⟨3, ![a, b, c]⟩] ⟨3, ![a, b, ct]⟩ 2)
    (p : Fin a) (q : Fin b) (r : Fin c) (j : Fin ct) (hj : j.val = 0 + r.val) :
    concatenate ⟨3, ![a, b, ct]⟩ 2 [⟨_, x0⟩, ⟨_, x1⟩, ⟨_, x2⟩, ⟨_, x3⟩, ⟨_, x4⟩, ⟨_, x5⟩] h (ix3 p q j) = x0 (ix3 p q r) :=
  concatenate_apply_piece 2 [⟨_, x0⟩, ⟨_, x1⟩, ⟨_, x2⟩, ⟨_, x3⟩, ⟨_, x4⟩, ⟨_, x5⟩] h (ix3 p q j) 0 (by show (0 : ℕ) < 6; omega) _ x0 rfl rfl (0) (by simp) (ix3 p q r)
    (fun ax hax => by
      match ax with
      | ⟨0, _⟩ => rfl
      | ⟨1, _⟩ => rfl
      | ⟨2, _⟩ => exact absurd rfl hax)
    (by show 0 + r.val = j.val; omega)

theorem concat6Last_apply1 {a b c ct : ℕ} (x0 x1 x2 x3 x4 x5 : (⟨3, ![a, b, c]⟩ : Shape).Idx → α)
    (h : Shape.Concatenates [(⟨3, ![a, b, c]⟩ : Shape), ⟨3, ![a, b, c]⟩, ⟨3, ![a, b, c]⟩, ⟨3, ![a, b, c]⟩, ⟨3, ![a, b, c]⟩, ⟨3, ![a, b, c]⟩] ⟨3, ![a, b, ct]⟩ 2)
    (p : Fin a) (q : Fin b) (r : Fin c) (j : Fin ct) (hj : j.val = c + r.val) :
    concatenate ⟨3, ![a, b, ct]⟩ 2 [⟨_, x0⟩, ⟨_, x1⟩, ⟨_, x2⟩, ⟨_, x3⟩, ⟨_, x4⟩, ⟨_, x5⟩] h (ix3 p q j) = x1 (ix3 p q r) :=
  concatenate_apply_piece 2 [⟨_, x0⟩, ⟨_, x1⟩, ⟨_, x2⟩, ⟨_, x3⟩, ⟨_, x4⟩, ⟨_, x5⟩] h (ix3 p q j) 1 (by show (1 : ℕ) < 6; omega) _ x1 rfl rfl (c) (by simp) (ix3 p q r)
    (fun ax hax => by
      match ax with
      | ⟨0, _⟩ => rfl
      | ⟨1, _⟩ => rfl
      | ⟨2, _⟩ => exact absurd rfl hax)
    (by show c + r.val = j.val; omega)

theorem concat6Last_apply2 {a b c ct : ℕ} (x0 x1 x2 x3 x4 x5 : (⟨3, ![a, b, c]⟩ : Shape).Idx → α)
    (h : Shape.Concatenates [(⟨3, ![a, b, c]⟩ : Shape), ⟨3, ![a, b, c]⟩, ⟨3, ![a, b, c]⟩, ⟨3, ![a, b, c]⟩, ⟨3, ![a, b, c]⟩, ⟨3, ![a, b, c]⟩] ⟨3, ![a, b, ct]⟩ 2)
    (p : Fin a) (q : Fin b) (r : Fin c) (j : Fin ct) (hj : j.val = c + c + r.val) :
    concatenate ⟨3, ![a, b, ct]⟩ 2 [⟨_, x0⟩, ⟨_, x1⟩, ⟨_, x2⟩, ⟨_, x3⟩, ⟨_, x4⟩, ⟨_, x5⟩] h (ix3 p q j) = x2 (ix3 p q r) :=
  concatenate_apply_piece 2 [⟨_, x0⟩, ⟨_, x1⟩, ⟨_, x2⟩, ⟨_, x3⟩, ⟨_, x4⟩, ⟨_, x5⟩] h (ix3 p q j) 2 (by show (2 : ℕ) < 6; omega) _ x2 rfl rfl (c + c) (by simp) (ix3 p q r)
    (fun ax hax => by
      match ax with
      | ⟨0, _⟩ => rfl
      | ⟨1, _⟩ => rfl
      | ⟨2, _⟩ => exact absurd rfl hax)
    (by show c + c + r.val = j.val; omega)

theorem concat6Last_apply3 {a b c ct : ℕ} (x0 x1 x2 x3 x4 x5 : (⟨3, ![a, b, c]⟩ : Shape).Idx → α)
    (h : Shape.Concatenates [(⟨3, ![a, b, c]⟩ : Shape), ⟨3, ![a, b, c]⟩, ⟨3, ![a, b, c]⟩, ⟨3, ![a, b, c]⟩, ⟨3, ![a, b, c]⟩, ⟨3, ![a, b, c]⟩] ⟨3, ![a, b, ct]⟩ 2)
    (p : Fin a) (q : Fin b) (r : Fin c) (j : Fin ct) (hj : j.val = c + c + c + r.val) :
    concatenate ⟨3, ![a, b, ct]⟩ 2 [⟨_, x0⟩, ⟨_, x1⟩, ⟨_, x2⟩, ⟨_, x3⟩, ⟨_, x4⟩, ⟨_, x5⟩] h (ix3 p q j) = x3 (ix3 p q r) :=
  concatenate_apply_piece 2 [⟨_, x0⟩, ⟨_, x1⟩, ⟨_, x2⟩, ⟨_, x3⟩, ⟨_, x4⟩, ⟨_, x5⟩] h (ix3 p q j) 3 (by show (3 : ℕ) < 6; omega) _ x3 rfl rfl (c + c + c) (by simp [add_assoc]) (ix3 p q r)
    (fun ax hax => by
      match ax with
      | ⟨0, _⟩ => rfl
      | ⟨1, _⟩ => rfl
      | ⟨2, _⟩ => exact absurd rfl hax)
    (by show c + c + c + r.val = j.val; omega)

theorem concat6Last_apply4 {a b c ct : ℕ} (x0 x1 x2 x3 x4 x5 : (⟨3, ![a, b, c]⟩ : Shape).Idx → α)
    (h : Shape.Concatenates [(⟨3, ![a, b, c]⟩ : Shape), ⟨3, ![a, b, c]⟩, ⟨3, ![a, b, c]⟩, ⟨3, ![a, b, c]⟩, ⟨3, ![a, b, c]⟩, ⟨3, ![a, b, c]⟩] ⟨3, ![a, b, ct]⟩ 2)
    (p : Fin a) (q : Fin b) (r : Fin c) (j : Fin ct) (hj : j.val = c + c + c + c + r.val) :
    concatenate ⟨3, ![a, b, ct]⟩ 2 [⟨_, x0⟩, ⟨_, x1⟩, ⟨_, x2⟩, ⟨_, x3⟩, ⟨_, x4⟩, ⟨_, x5⟩] h (ix3 p q j) = x4 (ix3 p q r) :=
  concatenate_apply_piece 2 [⟨_, x0⟩, ⟨_, x1⟩, ⟨_, x2⟩, ⟨_, x3⟩, ⟨_, x4⟩, ⟨_, x5⟩] h (ix3 p q j) 4 (by show (4 : ℕ) < 6; omega) _ x4 rfl rfl (c + c + c + c) (by simp [add_assoc]) (ix3 p q r)
    (fun ax hax => by
      match ax with
      | ⟨0, _⟩ => rfl
      | ⟨1, _⟩ => rfl
      | ⟨2, _⟩ => exact absurd rfl hax)
    (by show c + c + c + c + r.val = j.val; omega)

theorem concat6Last_apply5 {a b c ct : ℕ} (x0 x1 x2 x3 x4 x5 : (⟨3, ![a, b, c]⟩ : Shape).Idx → α)
    (h : Shape.Concatenates [(⟨3, ![a, b, c]⟩ : Shape), ⟨3, ![a, b, c]⟩, ⟨3, ![a, b, c]⟩, ⟨3, ![a, b, c]⟩, ⟨3, ![a, b, c]⟩, ⟨3, ![a, b, c]⟩] ⟨3, ![a, b, ct]⟩ 2)
    (p : Fin a) (q : Fin b) (r : Fin c) (j : Fin ct) (hj : j.val = c + c + c + c + c + r.val) :
    concatenate ⟨3, ![a, b, ct]⟩ 2 [⟨_, x0⟩, ⟨_, x1⟩, ⟨_, x2⟩, ⟨_, x3⟩, ⟨_, x4⟩, ⟨_, x5⟩] h (ix3 p q j) = x5 (ix3 p q r) :=
  concatenate_apply_piece 2 [⟨_, x0⟩, ⟨_, x1⟩, ⟨_, x2⟩, ⟨_, x3⟩, ⟨_, x4⟩, ⟨_, x5⟩] h (ix3 p q j) 5 (by show (5 : ℕ) < 6; omega) _ x5 rfl rfl (c + c + c + c + c) (by simp [add_assoc]) (ix3 p q r)
    (fun ax hax => by
      match ax with
      | ⟨0, _⟩ => rfl
      | ⟨1, _⟩ => rfl
      | ⟨2, _⟩ => exact absurd rfl hax)
    (by show c + c + c + c + c + r.val = j.val; omega)

open scoped BigOperators

/-- The first two axes exchanged: `[a, b, c] → [b, a, c]`. -/
theorem transpose_102_apply {a b c : ℕ} (x : (⟨3, ![a, b, c]⟩ : Shape).Idx → α)
    (h : (⟨3, ![a, b, c]⟩ : Shape).Transposes [1, 0, 2] ⟨3, ![b, a, c]⟩) (j : Fin b) (i : Fin a) (k : Fin c) :
    transpose ⟨3, ![b, a, c]⟩ [1, 0, 2] x h (ix3 j i k) = x (ix3 i j k) :=
  transpose_apply _ x h _ _ fun ax => match ax with | ⟨0, _⟩ => rfl | ⟨1, _⟩ => rfl | ⟨2, _⟩ => rfl

/-- The sum of a `[a, b, c]` block along its last axis, at `(p, q)`. -/
theorem lastSum_apply {φ : FTy} {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ k : Fin c, src (ix3 p q k) :=
  (Ideal.multiReduction_add_single src acc h hφ hacc (ix2 p q)).trans
    (Finset.sum_congr rfl fun k _ => congrArg src (funext fun ax => Fin.ext (by
      match ax with
      | ⟨0, _⟩ => rfl
      | ⟨1, _⟩ => rfl
      | ⟨2, _⟩ => rfl)))

end Cert.LibRank3

end
-- ==== Proof.LibMidAxis.lean ====
/-
  Blocks with a unit axis in the middle or at the head, read at an index written by its coordinates, at any extents.

  * a matrix `[a, c]` given a unit middle axis, `[a, 1, c]`, reads the matrix at `(p, r)`;
  * a block `[a, 1, c]` broadcast along its middle axis to `[a, b, c]` does not depend on the middle coordinate;
  * a block `[1, b, c]` broadcast along its first axis to `[a, b, c]` does not depend on the first coordinate;
  * a column `[a, 1]` as a vector `[a]`;
  * a one-entry matrix `[1, 1]` broadcast to `[a, b]` is that entry everywhere.
-/
import Idealize.ShloMosaic.Lib.ValueLayout
import Idealize.ShloMosaic.Lib.ValueIdx
import Idealize.ShloMosaic.Lib.Pipeline.Value

noncomputable section

namespace Cert.LibMidAxis

open Idealize.ShloMosaic Idealize.ShloMosaic.ValueIdx

variable {α : Type}

/-- `[a, c] → [a, 1, c]`: the entry at `(p, u, r)` is the matrix at `(p, r)`. -/
theorem addUnitMid_apply {a c : ℕ} (x : (⟨2, ![a, c]⟩ : Shape).Idx → α)
    (h : (⟨2, ![a, c]⟩ : Shape).ShapeCasts ⟨3, ![a, 1, c]⟩) (p : Fin a) (u : Fin 1) (r : Fin c) :
    shapeCast ⟨3, ![a, 1, c]⟩ x h (ix3 p u r) = x (ix2 p r) :=
  shapeCast_apply x h _ _ (by
    have hu : u.val = 0 := by omega
    rw [Shape.rowMajor_val_two, Shape.rowMajor_val_three]
    show p.val * c + r.val = (p.val * 1 + u.val) * c + r.val
    rw [hu, Nat.mul_one, Nat.add_zero])

/-- A block `[a, 1, c]` broadcast to `[a, b, c]` reads the block at `(p, 0, r)`. -/
theorem broadcastMid_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ =>
    show (0 : ℕ) = if (1 : ℕ) = 1 then 0 else q.val
    rw [if_pos rfl]
  | ⟨2, _⟩ =>
    show r.val = if c = 1 then 0 else r.val
    split
    · have := r.isLt; omega
    · rfl

/-- A block `[1, b, c]` broadcast to `[a, b, c]` reads the block at `(0, q, r)`. -/
theorem broadcastHead_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ =>
    show (0 : ℕ) = if (1 : ℕ) = 1 then 0 else p.val
    rw [if_pos rfl]
  | ⟨1, _⟩ =>
    show q.val = if b = 1 then 0 else q.val
    split
    · have := q.isLt; omega
    · rfl
  | ⟨2, _⟩ =>
    show r.val = if c = 1 then 0 else r.val
    split
    · have := r.isLt; omega
    · rfl

/-- A column `[a, 1]` as a vector `[a]`: entry `p` is the column at `(p, 0)`. -/
theorem dropUnitCol_apply {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    omega)

/-- A one-entry matrix `[1, 1]` broadcast to `[a, b]` reads that entry. -/
theorem broadcastEntry_apply {a b : ℕ} (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ =>
    show (0 : ℕ) = if (1 : ℕ) = 1 then 0 else p.val
    rw [if_pos rfl]
  | ⟨1, _⟩ =>
    show (0 : ℕ) = if (1 : ℕ) = 1 then 0 else q.val
    rw [if_pos rfl]

end Cert.LibMidAxis

end
-- ==== Proof.ChunkValue.lean ====
/-
  One chunk of sixteen features, as the vector unit computes it on a block of 256 rows.

  For a row `p` of the block and a feature `r` of the chunk the stored value is

      ∑ₕ max (base p h − x p r · w r h + c r h) 0 · w₂ h  +  b₂

  where `base` is the block's product with the direct half of the first layer's weights, `w` the sixteen rows of
  that half belonging to the chunk, `c` the sixteen rows of the other half with the first bias already added, `w₂`
  the second layer's weights and `b₂` its bias. The three-axis intermediate `[256, 16, 256]` is only a way of
  writing the sum over the hidden axis `h`: every operand is broadcast along the axes it does not have.
-/
import proofs.«156938_j63264868270309_2_alg».proof.Proof.Gen.KernelIdeal.Skeleton
import proofs.«156938_j63264868270309_2_alg».proof.Proof.LibRank3
import proofs.«156938_j63264868270309_2_alg».proof.Proof.LibMidAxis
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Chunk

open Idealize.ShloMosaic Idealize.ShloMosaic.ValueIdx Cert.KernelIdeal Cert.KernelIdeal.Gen

/-- The zero the rectifier compares against. -/
abbrev zero : EReal := Ideal.ofBits .f32 0x00000000#32

/-- The hidden unit `h` of feature `r` on row `p`, before the rectifier. -/
abbrev hidden (base : FVec Ideal S256x256 .f32) (xb : FVec Ideal S256x16 .f32) (wb cb : FVec Ideal S16x256 .f32)
    (p : Fin 256) (r : Fin 16) (h : Fin 256) : EReal :=
  base (ix2 p h) - xb (ix2 p r) * wb (ix2 r h) + cb (ix2 r h)

/-- A chunk's stored value at row `p`, feature `r`. -/
theorem chunk_apply (v7 : FVec Ideal S256 .f32) (v9 : FVec Ideal S1x1 .f32) (v12 : FVec Ideal S256x256 .f32)
    (xb : FVec Ideal S256x16 .f32) (wb cb : FVec Ideal S16x256 .f32) (p : Fin 256) (r : Fin 16) :
    k0_pay1 (F := Ideal) v7 v9 v12 xb wb cb (ix2 p r)
      = (∑ h : Fin 256, max (hidden v12 xb wb cb p r h) zero * v7 (ix1 h)) + v9 (ix2 (0 : Fin 1) (0 : Fin 1)) := by
  unfold k0_pay1
  simp only [shapeCast_self, addf_apply, Cert.LibMidAxis.broadcastEntry_apply]
  refine congrArg (· + v9 (ix2 (0 : Fin 1) (0 : Fin 1))) ?_
  refine (Cert.LibRank3.lastSum_apply _ _ _ _ _ p r).trans (Finset.sum_congr rfl fun h _ => ?_)
  simp only [addf_apply, mulf_apply, subf_apply, maximumf_apply, broadcast_apply,
    Cert.LibRank3.broadcastRow_apply, Cert.LibRank3.vecRow_apply,
    Cert.LibRank3.broadcastCol_apply, Cert.LibRank3.addUnitLast_apply, Cert.LibMidAxis.broadcastMid_apply,
    Cert.LibMidAxis.addUnitMid_apply, Cert.LibMidAxis.broadcastHead_apply, shapeCast_ab_1ab_apply]
  rfl

end Cert.KernelIdeal.Chunk

end
-- ==== Proof.LibBlockRead.lean ====
/-
  Vector operations of a rank-two block read at an index written by its two coordinates, at any extents.

  * a column `[a, 1]` broadcast along the rows to `[a, b]` reads, at `(p, c)`, the column at `p`;
  * a vector `[a]` cast to a column `[a, 1]` reads, at `(p, 0)`, the vector at `p`;
  * the sum of a `[a, b]` block along its second axis is, at row `p`, the sum over `k` of the block at `(p, k)`;
  * a matrix product `[m, k] · [k, n]` into a zero accumulator is, at `(p, c)`, the sum over `t` of the left factor
    at `(p, t)` times the right factor at `(t, c)` — given where the dimension numbers send an output index and a
    contraction index (four coordinate facts, each one line at a literal record).
-/
import Idealize.ShloMosaic.Lib.ValueLayout
import Idealize.ShloMosaic.Lib.ValueIdx
import Idealize.ShloMosaic.Lib.Pipeline.Value
import Idealize.ShloMosaic.PureOps.Ideal.Laws

noncomputable section

open scoped BigOperators

namespace Cert.Sage.BlockRead

open Idealize.ShloMosaic Idealize.ShloMosaic.ValueIdx

variable {α : Type}

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A vector `[a]` cast to a column `[a, 1]` reads, at `(p, u)`, the vector's entry `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- The sum of a `[a, b]` block along its second axis, at row `p`: the sum over `k` of the block at `(p, k)`. -/
theorem rowSum_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A product of a `[m, k]` block with a `[k, n]` block into a zero accumulator, at `(p, c)`. -/
theorem matmul_apply2 {m k n : ℕ} {φ₁ φ₂ : FTy} (D : DotDims ⟨2, ![m, k]⟩ ⟨2, ![k, n]⟩ ⟨2, ![m, n]⟩)
    (prec : Option ContractPrecision) (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (lhs : FVec Ideal ⟨2, ![m, k]⟩ φ₁) (rhs : FVec Ideal ⟨2, ![k, n]⟩ φ₂) (p : Fin m) (c : Fin n) :
    FloatOps.matmul D prec lhs rhs (constant ⟨2, ![m, n]⟩ .f32 0x00000000#32) (ix2 p c)
      = ∑ t : Fin k, lhs (ix2 p t) * rhs (ix2 t c) := by
  rw [Ideal.matmul_constant_zero_apply, ← Equiv.sum_comp (contrEquiv1 D k hr hs).symm]
  refine Finset.sum_congr rfl fun t _ => ?_
  have hk := contrEquiv1_symm_val D k hr hs t
  have el : D.lhsIdx (ix2 p c) ((contrEquiv1 D k hr hs).symm t) = ix2 p t := funext fun ax => Fin.ext (by
    match ax with
    | ⟨0, _⟩ => exact hl0 _ _
    | ⟨1, _⟩ => exact (hl1 _ _).trans hk)
  have er : D.rhsIdx (ix2 p c) ((contrEquiv1 D k hr hs).symm t) = ix2 t c := funext fun ax => Fin.ext (by
    match ax with
    | ⟨0, _⟩ => exact (hr0 _ _).trans hk
    | ⟨1, _⟩ => exact hr1 _ _)
  rw [el, er]

end Cert.Sage.BlockRead

end
-- ==== Proof.Spec.lean ====
/-
  The function both programs compute, over the extended reals.

  A sample is a row `x` of 128 features. For feature `q` the network is evaluated on the row with feature `q`
  removed and a one-hot code of `q` appended: with `W₁` the first layer's 256 × 256 weights (rows 0 … 127 meet the
  features, rows 128 … 255 the code), its hidden unit `h` is

      (∑ᵢ xᵢ · W₁[i, h]) − x_q · W₁[q, h] + (W₁[128 + q, h] + b₁[h])

  — the full product less the one term the removal deletes, plus the code's row and the bias. The gate of feature `q`
  is `∑ₕ max(hidden, 0) · w₂[h] + b₂`, and the result's column `q` is `x_q · (1 + gate)`.

  The number of rows is a parameter: the same formula is read on a block of rows and on the whole array, and a
  block's row is a row of the array (`gate_congr_rows`).
-/
import Idealize.ShloMosaic.Lib.ValueIdx
import Idealize.ShloMosaic.PureOps.Ideal

noncomputable section

open scoped BigOperators

namespace Cert.FeatureGate

open Idealize.ShloMosaic Idealize.ShloMosaic.ValueIdx

/-- The real number zero, as the word both programs spell it. -/
abbrev zero : EReal := Ideal.ofBits .f32 0x00000000#32
/-- The real number one, as the word both programs spell it. -/
abbrev one : EReal := Ideal.ofBits .f32 0x3F800000#32

/-- Feature `q`'s row in the direct half of the first layer's weights. -/
def lo (q : Fin 128) : Fin 256 := ⟨q.val, by have := q.isLt; omega⟩
/-- Feature `q`'s row in the code half. -/
def hi (q : Fin 128) : Fin 256 := ⟨128 + q.val, by have := q.isLt; omega⟩

/-- Row `n`'s product with column `h` of the direct half. -/
def dense {R : ℕ} (X : (⟨2, ![R, 128]⟩ : Shape).Idx → EReal) (W1 : (⟨2, ![256, 256]⟩ : Shape).Idx → EReal)
    (n : Fin R) (h : Fin 256) : EReal :=
  ∑ i : Fin 128, X (ix2 n i) * W1 (ix2 (lo i) h)

/-- Hidden unit `h` of feature `q` on row `n`, before the rectifier. -/
def hidden {R : ℕ} (X : (⟨2, ![R, 128]⟩ : Shape).Idx → EReal) (W1 : (⟨2, ![256, 256]⟩ : Shape).Idx → EReal)
    (B1 : Fin 256 → EReal) (n : Fin R) (q : Fin 128) (h : Fin 256) : EReal :=
  dense X W1 n h - X (ix2 n q) * W1 (ix2 (lo q) h) + (W1 (ix2 (hi q) h) + B1 h)

/-- The gate of feature `q` on row `n`. -/
def gate {R : ℕ} (X : (⟨2, ![R, 128]⟩ : Shape).Idx → EReal) (W1 : (⟨2, ![256, 256]⟩ : Shape).Idx → EReal)
    (B1 W2 : Fin 256 → EReal) (b2 : EReal) (n : Fin R) (q : Fin 128) : EReal :=
  (∑ h : Fin 256, max (hidden X W1 B1 n q h) zero * W2 h) + b2

/-- The result's entry: the feature times one plus its gate. -/
def entry {R : ℕ} (X : (⟨2, ![R, 128]⟩ : Shape).Idx → EReal) (W1 : (⟨2, ![256, 256]⟩ : Shape).Idx → EReal)
    (B1 W2 : Fin 256 → EReal) (b2 : EReal) (n : Fin R) (q : Fin 128) : EReal :=
  X (ix2 n q) * (one + gate X W1 B1 W2 b2 n q)

/-- The result as an array over `R` rows. -/
def cols {R : ℕ} (X : (⟨2, ![R, 128]⟩ : Shape).Idx → EReal) (W1 : (⟨2, ![256, 256]⟩ : Shape).Idx → EReal)
    (B1 W2 : Fin 256 → EReal) (b2 : EReal) : (⟨2, ![R, 128]⟩ : Shape).Idx → EReal :=
  fun y => entry X W1 B1 W2 b2 (y 0) (y 1)

theorem cols_apply {R : ℕ} (X : (⟨2, ![R, 128]⟩ : Shape).Idx → EReal) (W1 : (⟨2, ![256, 256]⟩ : Shape).Idx → EReal)
    (B1 W2 : Fin 256 → EReal) (b2 : EReal) (n : Fin R) (q : Fin 128) :
    cols X W1 B1 W2 b2 (ix2 n q) = entry X W1 B1 W2 b2 n q := rfl

/-- The entry at row `n` of one array is the entry at row `n'` of another whose row `n'` is that row. -/
theorem entry_congr_rows {R R' : ℕ} (X : (⟨2, ![R, 128]⟩ : Shape).Idx → EReal) (X' : (⟨2, ![R', 128]⟩ : Shape).Idx → EReal)
    (W1 : (⟨2, ![256, 256]⟩ : Shape).Idx → EReal) (B1 W2 : Fin 256 → EReal) (b2 : EReal) (n : Fin R) (n' : Fin R')
    (hrow : ∀ i : Fin 128, X (ix2 n i) = X' (ix2 n' i)) (q : Fin 128) :
    entry X W1 B1 W2 b2 n q = entry X' W1 B1 W2 b2 n' q := by
  unfold entry gate hidden dense
  simp only [hrow]

end Cert.FeatureGate

end
-- ==== Proof.BlockValue.lean ====
/-
  What one grid point leaves in the output's block, as a function of the five input blocks.

  The body writes the gates of the 128 features into a scratch buffer, sixteen features at a time (eight stores that
  tile the buffer's columns), reads the buffer back whole, and stores `x · (1 + gate)`. Each of the eight stores is
  the same computation on its own sixteen columns (the chunk of ChunkValue.lean applied to column slices of the block
  and row slices of the weights), so the buffer read back is ONE function of the block index — the gate of
  Spec.lean on a block of 256 rows — and the output block is the entry of Spec.lean.
-/
import proofs.«156938_j63264868270309_2_alg».proof.Proof.Gen.KernelIdeal.Frame
import proofs.«156938_j63264868270309_2_alg».proof.Proof.ChunkValue
import proofs.«156938_j63264868270309_2_alg».proof.Proof.LibBlockRead
import proofs.«156938_j63264868270309_2_alg».proof.Proof.Spec
import Idealize.ShloMosaic.Lib.Pipeline.Value
import Idealize.ShloMosaic.Lib.Tactic

set_option maxRecDepth 16384

noncomputable section

open scoped BigOperators

namespace Cert.KernelIdeal.Block

open Idealize.ShloMosaic Idealize.ShloMosaic.TcCoe Idealize.ShloMosaic.ValueIdx Idealize.SL.Sem
open Cert.KernelIdeal Cert.KernelIdeal.Gen Cert.FeatureGate

theorem hz : (![0, 0] : Fin 2 → Nat) = fun _ => 0 := funext fun a => by fin_cases a <;> rfl

/-! ## The pieces every chunk shares -/

/-- The block's product with the direct half of the weights (the matrix unit's result; the narrowing of its
    operands is the identity on the extended reals). -/
theorem base_apply (x0 : FVec Ideal S256x128 .f32) (x1 : FVec Ideal S256x256 .f32) (p h : Fin 256) :
    k0_pay6 (F := Ideal) x0 x1 (ix2 p h) = dense x0 x1 p h := by
  unfold k0_pay6
  refine (Cert.Sage.BlockRead.matmul_apply2 dot_S256x128_S128x256_S256x256_1_0_0_1_n_n none rfl rfl
    (fun i q => ?_) (fun i q => ?_) (fun i q => ?_) (fun i q => ?_) _ _ p h).trans ?_
  · unfold DotDims.lhsIdx
    rw [dif_neg (show ¬(0 : Fin S256x128.rank) ∈ dot_S256x128_S128x256_S256x256_1_0_0_1_n_n.lhsBatch by decide), dif_pos (show (0 : Fin S256x128.rank) ∈ dot_S256x128_S128x256_S256x256_1_0_0_1_n_n.lhsNonContracting by decide)]
    rfl
  · exact dot_S256x128_S128x256_S256x256_1_0_0_1_n_n.lhsIdx_val_of_single rfl i q
  · exact dot_S256x128_S128x256_S256x256_1_0_0_1_n_n.rhsIdx_val_of_single rfl i q
  · unfold DotDims.rhsIdx
    rw [dif_neg (show ¬(1 : Fin S128x256.rank) ∈ dot_S256x128_S128x256_S256x256_1_0_0_1_n_n.rhsBatch by decide), dif_pos (show (1 : Fin S128x256.rank) ∈ dot_S256x128_S128x256_S256x256_1_0_0_1_n_n.rhsNonContracting by decide)]
    rfl
  · unfold dense
    refine Finset.sum_congr rfl fun t _ => ?_
    refine congrArg (x0 (ix2 p t) * ·) ?_
    unfold k0_pay3
    exact slice2_axis0_apply 0 x1 slices_S256x256_o0_0_S128x256 t h (lo t) (by show t.val = 0 + t.val; omega)

/-- The direct half of the weights, row `j`. -/
theorem direct_apply (x1 : FVec Ideal S256x256 .f32) (j : Fin 128) (h : Fin 256) :
    k0_pay3 (F := Ideal) x1 (ix2 j h) = x1 (ix2 (lo j) h) := by
  unfold k0_pay3
  exact slice2_axis0_apply 0 x1 slices_S256x256_o0_0_S128x256 j h (lo j) (by show j.val = 0 + j.val; omega)

/-- The code half of the weights with the first bias added, row `j`. -/
theorem code_apply (x1 : FVec Ideal S256x256 .f32) (x2 : FVec Ideal S1x256 .f32) (j : Fin 128) (h : Fin 256) :
    k0_pay7 (F := Ideal) x1 x2 (ix2 j h) = x1 (ix2 (hi j) h) + x2 (ix2 (0 : Fin 1) h) := by
  unfold k0_pay7
  rw [shapeCast_self]
  refine congrArg₂ (· + ·) ?_ ?_
  · exact slice2_axis0_apply 128 x1 slices_S256x256_o128_0_S128x256 j h (hi j) rfl
  · exact broadcastTo_1b_ab_apply x2 broadcasts_S1x256_S128x256 j h

/-- The second layer's weights as a vector. -/
theorem w2_apply (x3 : FVec Ideal S256x1 .f32) (h : Fin 256) :
    k0_pay4 (F := Ideal) x3 (ix1 h) = x3 (ix2 h (0 : Fin 1)) := by
  unfold k0_pay4
  exact Cert.LibMidAxis.dropUnitCol_apply x3 shapeCasts_S256x1_S256 h

/-- The second bias. -/
theorem b2_eq (x4 : FVec Ideal S1x1 .f32) : k0_pay5 (F := Ideal) x4 = x4 := by
  unfold k0_pay5
  exact shapeCast_self x4 _

/-! ## The gate on a block -/

/-- The gate of Spec.lean on a block: bias row `x2`, weight column `x3`, bias entry `x4`. -/
abbrev blockGate (x0 : FVec Ideal S256x128 .f32) (x1 : FVec Ideal S256x256 .f32) (x2 : FVec Ideal S1x256 .f32)
    (x3 : FVec Ideal S256x1 .f32) (x4 : FVec Ideal S1x1 .f32) (p : Fin 256) (q : Fin 128) : EReal :=
  gate x0 x1 (fun h => x2 (ix2 (0 : Fin 1) h)) (fun h => x3 (ix2 h (0 : Fin 1))) (x4 (ix2 (0 : Fin 1) (0 : Fin 1))) p q

/-- The chunk that starts at column `o`: at row `p`, local feature `r`, it is the gate of feature `q = o + r`. -/
theorem chunk_gate (o : ℕ) (x0 : FVec Ideal S256x128 .f32) (x1 : FVec Ideal S256x256 .f32) (x2 : FVec Ideal S1x256 .f32)
    (x3 : FVec Ideal S256x1 .f32) (x4 : FVec Ideal S1x1 .f32)
    (hs0 : S256x128.Slices ![0, o] S256x16) (hs1 : S128x256.Slices ![o, 0] S16x256)
    (p : Fin 256) (r : Fin 16) (q : Fin 128) (hq : q.val = o + r.val) :
    k0_pay1 (F := Ideal) (k0_pay4 x3) (k0_pay5 x4) (k0_pay6 x0 x1) (extractStridedSlice S256x16 ![0, o] x0 hs0)
        (extractStridedSlice S16x256 ![o, 0] (k0_pay3 x1) hs1) (extractStridedSlice S16x256 ![o, 0] (k0_pay7 x1 x2) hs1) (ix2 p r)
      = blockGate x0 x1 x2 x3 x4 p q := by
  rw [Cert.KernelIdeal.Chunk.chunk_apply, b2_eq]
  unfold blockGate gate
  refine congrArg (· + x4 (ix2 (0 : Fin 1) (0 : Fin 1))) ?_
  refine Finset.sum_congr rfl fun h _ => ?_
  rw [w2_apply]
  refine congrArg (max · zero * x3 (ix2 h (0 : Fin 1))) ?_
  unfold Cert.KernelIdeal.Chunk.hidden Cert.FeatureGate.hidden
  rw [base_apply, slice2_axis1_apply o x0 hs0 p r q hq, slice2_axis0_apply o (k0_pay3 (F := Ideal) x1) hs1 r h q hq,
    slice2_axis0_apply o (k0_pay7 (F := Ideal) x1 x2) hs1 r h q hq, direct_apply, code_apply]

end Cert.KernelIdeal.Block

end
-- ==== Proof.BodyValue.lean ====
/-
  The gate buffer and the output block.

  The eight stores into the scratch buffer tile its 128 columns in strips of sixteen, and the store at columns
  `o … o + 15` holds the gates of features `o … o + 15` (BlockValue.lean). So the whole-buffer read that follows them
  is the gate of Spec.lean at every (row, feature) of the block, whatever the buffer held before; the output block
  is then `x · (1 + gate)`, the entry of Spec.lean on a block of 256 rows.
-/
import proofs.«156938_j63264868270309_2_alg».proof.Proof.BlockValue

set_option maxRecDepth 16384

noncomputable section

open scoped BigOperators

namespace Cert.KernelIdeal.Body

open Idealize.ShloMosaic Idealize.ShloMosaic.TcCoe Idealize.ShloMosaic.ValueIdx Idealize.ShloMosaic.Tactic Idealize.SL.Sem
open Cert.KernelIdeal Cert.KernelIdeal.Gen Cert.KernelIdeal.Block Cert.FeatureGate

/-- The gate buffer's contents as ONE function of the block index. -/
def gateBuf (x0 : Vec Ideal S256x128 .f32) (x1 : Vec Ideal S256x256 .f32) (x2 : Vec Ideal S1x256 .f32) (x3 : Vec Ideal S256x1 .f32) (x4 : Vec Ideal S1x1 .f32) : S256x128.Idx → EReal :=
  fun y => blockGate x0 x1 x2 x3 x4 (y 0) (y 1)

/-- A strip of sixteen columns starting at column `o` is the strip of `gateBuf` its rectangle names. -/
theorem strip_eq (o : ℕ) (x0 : Vec Ideal S256x128 .f32) (x1 : Vec Ideal S256x256 .f32) (x2 : Vec Ideal S1x256 .f32) (x3 : Vec Ideal S256x1 .f32) (x4 : Vec Ideal S1x1 .f32)
    (inb : ∀ a, (![0, o] : Fin 2 → ℕ) a + S256x16.size a ≤ S256x128.size a)
    (hs0 : S256x128.Slices ![0, o] S256x16) (hs1 : S128x256.Slices ![o, 0] S16x256)
    (x : (Rect.unit (s := S256x128) ![0, o] S256x16.size inb).shape.Idx) :
    k0_pay1 (F := Ideal) (k0_pay4 x3) (k0_pay5 x4) (k0_pay6 x0 x1) (extractStridedSlice S256x16 ![0, o] x0 hs0)
        (extractStridedSlice S16x256 ![o, 0] (k0_pay3 x1) hs1) (extractStridedSlice S16x256 ![o, 0] (k0_pay7 x1 x2) hs1) x
      = gateBuf x0 x1 x2 x3 x4 ((Rect.unit (s := S256x128) ![0, o] S256x16.size inb).emb x) := by
  obtain ⟨p, r, rfl⟩ : ∃ (p : Fin 256) (r : Fin 16), x = ix2 p r := ⟨x 0, x 1, eq_ix2 x⟩
  have e0 : ((Rect.unit (s := S256x128) ![0, o] S256x16.size inb).emb (ix2 p r)) 0 = p :=
    Fin.ext (by show 0 + 1 * p.val = p.val; omega)
  show _ = blockGate x0 x1 x2 x3 x4 (((Rect.unit (s := S256x128) ![0, o] S256x16.size inb).emb (ix2 p r)) 0)
    (((Rect.unit (s := S256x128) ![0, o] S256x16.size inb).emb (ix2 p r)) 1)
  rw [e0]
  exact chunk_gate o x0 x1 x2 x3 x4 hs0 hs1 p r _ (by show o + 1 * r.val = o + r.val; omega)

/-- The eight stores into the gate buffer, the last one first. -/
abbrev stores (x0 : Vec Ideal S256x128 .f32) (x1 : Vec Ideal S256x256 .f32) (x2 : Vec Ideal S1x256 .f32) (x3 : Vec Ideal S256x1 .f32) (x4 : Vec Ideal S1x1 .f32) : List (View.Piece (Elt Ideal) S256x128 .f32) :=
  [⟨Rect.unit ![0, 112] S256x16.size inb_S256x128_S256x16_0_112, k0_pay1 (k0_pay4 x3) (k0_pay5 x4) (k0_pay6 x0 x1) (k0_pay24 x0) (k0_pay25 (k0_pay3 x1)) (k0_pay26 (k0_pay7 x1 x2))⟩,
   ⟨Rect.unit ![0, 96] S256x16.size inb_S256x128_S256x16_0_96, k0_pay23 x0 (k0_pay3 x1) (k0_pay4 x3) (k0_pay5 x4) (k0_pay6 x0 x1) (k0_pay7 x1 x2)⟩,
   ⟨Rect.unit ![0, 80] S256x16.size inb_S256x128_S256x16_0_80, k0_pay22 (k0_pay4 x3) (k0_pay5 x4) (k0_pay6 x0 x1) (k0_pay19 x0) (k0_pay20 (k0_pay3 x1)) (k0_pay21 (k0_pay7 x1 x2))⟩,
   ⟨Rect.unit ![0, 64] S256x16.size inb_S256x128_S256x16_0_64, k0_pay18 x0 (k0_pay3 x1) (k0_pay4 x3) (k0_pay5 x4) (k0_pay6 x0 x1) (k0_pay7 x1 x2)⟩,
   ⟨Rect.unit ![0, 48] S256x16.size inb_S256x128_S256x16_0_48, k0_pay17 (k0_pay4 x3) (k0_pay5 x4) (k0_pay6 x0 x1) (k0_pay14 x0) (k0_pay15 (k0_pay3 x1)) (k0_pay16 (k0_pay7 x1 x2))⟩,
   ⟨Rect.unit ![0, 32] S256x16.size inb_S256x128_S256x16_0_32, k0_pay13 x0 (k0_pay3 x1) (k0_pay4 x3) (k0_pay5 x4) (k0_pay6 x0 x1) (k0_pay7 x1 x2)⟩,
   ⟨Rect.unit ![0, 16] S256x16.size inb_S256x128_S256x16_0_16, k0_pay12 (k0_pay4 x3) (k0_pay5 x4) (k0_pay6 x0 x1) (k0_pay9 x0) (k0_pay10 x1) (k0_pay11 x1 x2)⟩,
   ⟨Rect.unit ![0, 0] S256x16.size inb_S256x128_S256x16_0_0, k0_pay8 x0 x1 x2 x3 x4⟩]

/-- Each store is its strip of `gateBuf`. -/
theorem stores_strips (x0 : Vec Ideal S256x128 .f32) (x1 : Vec Ideal S256x256 .f32) (x2 : Vec Ideal S1x256 .f32) (x3 : Vec Ideal S256x1 .f32) (x4 : Vec Ideal S1x1 .f32) :
    ∀ pc ∈ stores x0 x1 x2 x3 x4, ∀ x : pc.1.shape.Idx, pc.2 x = gateBuf x0 x1 x2 x3 x4 (pc.1.emb x) := by
  intro pc hpc
  simp only [stores, List.mem_cons, List.mem_nil_iff, or_false] at hpc
  rcases hpc with rfl | rfl | rfl | rfl | rfl | rfl | rfl | rfl
  · exact fun x => strip_eq 112 x0 x1 x2 x3 x4 inb_S256x128_S256x16_0_112 slices_S256x128_o0_112_S256x16 slices_S128x256_o112_0_S16x256 x
  · exact fun x => strip_eq 96 x0 x1 x2 x3 x4 inb_S256x128_S256x16_0_96 slices_S256x128_o0_96_S256x16 slices_S128x256_o96_0_S16x256 x
  · exact fun x => strip_eq 80 x0 x1 x2 x3 x4 inb_S256x128_S256x16_0_80 slices_S256x128_o0_80_S256x16 slices_S128x256_o80_0_S16x256 x
  · exact fun x => strip_eq 64 x0 x1 x2 x3 x4 inb_S256x128_S256x16_0_64 slices_S256x128_o0_64_S256x16 slices_S128x256_o64_0_S16x256 x
  · exact fun x => strip_eq 48 x0 x1 x2 x3 x4 inb_S256x128_S256x16_0_48 slices_S256x128_o0_48_S256x16 slices_S128x256_o48_0_S16x256 x
  · exact fun x => strip_eq 32 x0 x1 x2 x3 x4 inb_S256x128_S256x16_0_32 slices_S256x128_o0_32_S256x16 slices_S128x256_o32_0_S16x256 x
  · exact fun x => strip_eq 16 x0 x1 x2 x3 x4 inb_S256x128_S256x16_0_16 slices_S256x128_o0_16_S256x16 slices_S128x256_o16_0_S16x256 x
  · exact fun x => strip_eq 0 x0 x1 x2 x3 x4 inb_S256x128_S256x16_0_0 slices_S256x128_o0_0_S256x16 slices_S128x256_o0_0_S16x256 x

/-- The eight strips cover the buffer. -/
theorem stores_cover (x0 : Vec Ideal S256x128 .f32) (x1 : Vec Ideal S256x256 .f32) (x2 : Vec Ideal S1x256 .f32) (x3 : Vec Ideal S256x1 .f32) (x4 : Vec Ideal S1x1 .f32) (y : S256x128.Idx) :
    ∃ pc ∈ stores x0 x1 x2 x3 x4, y ∈ pc.1.set :=
  View.cover_of_tiledL (stores x0 x1 x2 x3 x4) S256x16.size (by sl_kernel_rfl) y

/-- The whole-buffer read after the eight stores is `gateBuf`, through any view and over any earlier contents. -/
theorem gateBuf_read (v : View sig .tc .vmem S256x128 .f32) (x0 : Vec Ideal S256x128 .f32) (x1 : Vec Ideal S256x256 .f32) (x2 : Vec Ideal S1x256 .f32) (x3 : Vec Ideal S256x1 .f32) (x4 : Vec Ideal S1x1 .f32)
    (inb : ∀ a, (![0, 0] : Fin 2 → ℕ) a + S256x128.size a ≤ S256x128.size a) :
    v.readCov (stores x0 x1 x2 x3 x4) (Rect.unit ![0, 0] S256x128.size inb).toLoadRect = gateBuf x0 x1 x2 x3 x4 := by
  rw [View.readCov_eq_canon_ld _ _ _ (stores_cover x0 x1 x2 x3 x4), View.ld_unit_zero hz]
  funext y
  exact View.canon_apply_of_pieces (gateBuf x0 x1 x2 x3 x4) (stores x0 x1 x2 x3 x4) (stores_strips x0 x1 x2 x3 x4) y
    (stores_cover x0 x1 x2 x3 x4 y)

/-- The output block after the body, at row `p` and feature `q`: the entry of Spec.lean on the block. -/
theorem out_apply (c : Dev nD) (i : grid0.Coords) (arg1 : Memref sig .tc .vmem S256x128 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S256x1 .f32) (harg4 : arg4.IsWhole) (arg5 : Memref sig .tc .vmem S1x1 .f32) (harg5 : arg5.IsWhole) (arg6 : Memref sig .tc .vmem S256x128 .f32) (harg6 : arg6.IsWhole) (arg7 : Memref sig .tc .vmem S256x128 .f32) (harg7 : arg7.IsWhole)
    (x0 : Vec Ideal S256x128 .f32) (x1 : Vec Ideal S256x256 .f32) (x2 : Vec Ideal S1x256 .f32) (x3 : Vec Ideal S256x1 .f32) (x4 : Vec Ideal S1x1 .f32) (p : Fin 256) (q : Fin 128) :
    out0_A_5 (F := Ideal) c i arg1 harg1 arg2 harg2 arg3 harg3 arg4 harg4 arg5 harg5 arg6 harg6 arg7 harg7 x0 x1 x2 x3 x4 (ix2 p q)
      = entry x0 x1 (fun h => x2 (ix2 (0 : Fin 1) h)) (fun h => x3 (ix2 h (0 : Fin 1))) (x4 (ix2 (0 : Fin 1) (0 : Fin 1))) p q := by
  unfold out0_A_5
  rw [View.read_writes_eq_canon _ _ _ (cover0_A_5 c i arg1 harg1 arg2 harg2 arg3 harg3 arg4 harg4 arg5 harg5 arg6 harg6 arg7 harg7 x0 x1 x2 x3 x4)]
  unfold kernelRun0_A
  dsimp only
  sl_unfold_words
  rw [View.canon_unit_zero hz]
  simp only [View.readAt_eq_ld, harg1.read_unread, harg2.read_unread, harg3.read_unread, harg4.read_unread, harg5.read_unread,
    View.ld_unit_zero (S := S256x128) hz, View.ld_unit_zero (S := S256x256) hz, View.ld_unit_zero (S := S1x256) hz,
    View.ld_unit_zero (S := S256x1) hz, View.ld_unit_zero (S := S1x1) hz]
  refine (congrArg (fun g => k0_pay2 x0 g (ix2 p q)) (gateBuf_read arg7.view x0 x1 x2 x3 x4 _)).trans ?_
  rfl

end Cert.KernelIdeal.Body

end
-- ==== Proof.KernelArray.lean ====
/-
  From blocks to the result array, and the kernel's run.

  Grid point `t` works on rows `256·t … 256·t + 255` of `x`, with the whole weight matrices and biases beside it (the
  first bias as a row `[1, 256]`, the second as a one-entry matrix, both reshaped by the host before the launch).
  What it writes back is the entry of Spec.lean on its block (BodyValue.lean), and a block's row `p` is row
  `256·t + p` of the array: so every point writes the block of ONE array, `cols` of the five arguments, and the
  sixteen blocks cover it. After the launch the host puts a column of ones in front.
-/
import proofs.«156938_j63264868270309_2_alg».proof.Proof.BodyValue
import Idealize.ShloMosaic.Lib.StableHlo.Run

set_option maxRecDepth 16384

noncomputable section

open scoped BigOperators

namespace Cert.KernelIdeal.Array

open Idealize.ShloMosaic Idealize.ShloMosaic.TcCoe Idealize.ShloMosaic.ValueIdx Idealize.SL.Sem
open Idealize.ShloMosaic.Pipeline (Dat)
open Cert.KernelIdeal Cert.KernelIdeal.Gen Cert.FeatureGate

variable (m : (ℓ : Loc nD τ sig) → Buf (Elt Ideal) ℓ) (ρ : Dev nD → PrngReg)

/-- The first bias, the second layer's weights and the second bias as the formula of Spec.lean takes them. -/
abbrev bias1 (c : Dev nD) : Fin 256 → EReal := fun h => m ((c : Thread nD τ).loc main_arg2) (ix1 h)
abbrev weight2 (c : Dev nD) : Fin 256 → EReal := fun h => m ((c : Thread nD τ).loc main_arg3) (ix2 h (0 : Fin 1))
abbrev bias2 (c : Dev nD) : EReal := m ((c : Thread nD τ).loc main_arg4) (ix1 (0 : Fin 1))

/-- The array the launch leaves: `cols` of the five arguments. -/
abbrev result (c : Dev nD) : Buf (Elt Ideal) ((c : Thread nD τ).loc main_v2) :=
  cols (m ((c : Thread nD τ).loc main_arg0)) (m ((c : Thread nD τ).loc main_arg1)) (bias1 m c) (weight2 m c) (bias2 m c)

/-! ## The windows' index maps, decided once over the grid -/

theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The host's two reshapes before the launch -/

theorem V_bias1 (c : Dev nD) :
    (V m c main_v0 : S1x256.Idx → EReal) = shapeCast S1x256 (m ((c : Thread nD τ).loc main_arg2)) shapeCasts_S256_S1x256 := by
  show StableHlo.after hostOps0 (fun b => m (c, b)) (Proc.devRef .tc main_v0) = _
  after_results
  rfl

theorem V_bias2 (c : Dev nD) :
    (V m c main_v1 : S1x1.Idx → EReal) = shapeCast S1x1 (m ((c : Thread nD τ).loc main_arg4)) shapeCasts_S1_S1x1 := by
  show StableHlo.after hostOps0 (fun b => m (c, b)) (Proc.devRef .tc main_v1) = _
  after_results
  rfl

/-! ## The five input blocks at point `t` -/

/-- Row `p` of the block of `x` is row `256·t + p` of `x`. -/
theorem blk_x (c : Dev nD) (t : Fin cfg0.N) (p : Fin 256) (i : Fin 128) (n : Fin 4096) (hn : n.val = t.val * 256 + p.val) :
    (iblk m c 0 t : Vec Ideal S256x128 .f32) (ix2 p i) = m ((c : Thread nD τ).loc main_arg0) (ix2 n i) := by
  obtain ⟨e0, e1, -⟩ := idx_facts t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 2) * 256 + 1 * p.val = n.val; rw [e0]; omega
  | ⟨1, _⟩ => show win0_0.index t (1 : Fin 2) * 128 + 1 * i.val = i.val; rw [e1]; omega

/-- The block of the first layer's weights is the whole matrix. -/
theorem blk_w1 (c : Dev nD) (t : Fin cfg0.N) : (iblk m c 1 t : Vec Ideal S256x256 .f32) = m ((c : Thread nD τ).loc main_arg1) := by
  obtain ⟨-, -, e0, e1, -⟩ := idx_facts t
  funext y
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t (0 : Fin 2) * 256 + 1 * (y 0).val = (y 0).val; rw [e0]; omega
  | ⟨1, _⟩ => show win0_1.index t (1 : Fin 2) * 256 + 1 * (y 1).val = (y 1).val; rw [e1]; omega

/-- The block of the first bias is the bias as a row. -/
theorem blk_b1 (c : Dev nD) (t : Fin cfg0.N) (h : Fin 256) :
    (iblk m c 2 t : Vec Ideal S1x256 .f32) (ix2 (0 : Fin 1) h) = bias1 m c h := by
  obtain ⟨-, -, -, -, e0, e1, -⟩ := idx_facts t
  unfold iblk
  rw [View.read_apply]
  show V m c main_v0 _ = _
  rw [V_bias1]
  have e : (((cfg0.win 2).blk t).view.emb (ix2 (0 : Fin 1) h) : S1x256.Idx) = ix2 (0 : Fin 1) h :=
    funext fun a => Fin.ext (by
      match a with
      | ⟨0, _⟩ => show win0_2.index t (0 : Fin 2) * 1 + 1 * 0 = 0; rw [e0]
      | ⟨1, _⟩ => show win0_2.index t (1 : Fin 2) * 256 + 1 * h.val = h.val; rw [e1]; omega)
  refine (congrArg (shapeCast S1x256 (m ((c : Thread nD τ).loc main_arg2)) shapeCasts_S256_S1x256) e).trans ?_
  exact shapeCast_a_1a_apply (m ((c : Thread nD τ).loc main_arg2)) shapeCasts_S256_S1x256 (0 : Fin 1) h

/-- The block of the second layer's weights is the whole column. -/
theorem blk_w2 (c : Dev nD) (t : Fin cfg0.N) : (iblk m c 3 t : Vec Ideal S256x1 .f32) = m ((c : Thread nD τ).loc main_arg3) := by
  obtain ⟨-, -, -, -, -, -, e0, e1, -⟩ := idx_facts t
  funext y
  unfold iblk
  rw [View.read_apply]
  show V m c main_arg3 _ = _
  rw [V_main_arg3]
  refine congrArg (m ((c : Thread nD τ).loc main_arg3)) (funext fun a => Fin.ext ?_)
  match a with
  | ⟨0, _⟩ => show win0_3.index t (0 : Fin 2) * 256 + 1 * (y 0).val = (y 0).val; rw [e0]; omega
  | ⟨1, _⟩ => show win0_3.index t (1 : Fin 2) * 1 + 1 * (y 1).val = (y 1).val; rw [e1]; omega

/-- The block of the second bias is the bias. -/
theorem blk_b2 (c : Dev nD) (t : Fin cfg0.N) :
    (iblk m c 4 t : Vec Ideal S1x1 .f32) (ix2 (0 : Fin 1) (0 : Fin 1)) = bias2 m c := by
  obtain ⟨-, -, -, -, -, -, -, -, e0, e1, -⟩ := idx_facts t
  unfold iblk
  rw [View.read_apply]
  show V m c main_v1 _ = _
  rw [V_bias2]
  have e : (((cfg0.win 4).blk t).view.emb (ix2 (0 : Fin 1) (0 : Fin 1)) : S1x1.Idx) = ix2 (0 : Fin 1) (0 : Fin 1) :=
    funext fun a => Fin.ext (by
      match a with
      | ⟨0, _⟩ => show win0_4.index t (0 : Fin 2) * 1 + 1 * 0 = 0; rw [e0]
      | ⟨1, _⟩ => show win0_4.index t (1 : Fin 2) * 1 + 1 * 0 = 0; rw [e1])
  refine (congrArg (shapeCast S1x1 (m ((c : Thread nD τ).loc main_arg4)) shapeCasts_S1_S1x1) e).trans ?_
  exact shapeCast_a_1a_apply (m ((c : Thread nD τ).loc main_arg4)) shapeCasts_S1_S1x1 (0 : Fin 1) (0 : Fin 1)

/-! ## What a point writes back, the cover, the array -/

/-- Point `t` writes back block `t` of `result`. -/
theorem flushed_eq (c : Dev nD) (t : Fin cfg0.N) :
    (dats m 0 c).flushed 5 t = ((cfg0.win 5).blk t).view.read (Elt Ideal) (result m c) := by
  obtain ⟨-, -, -, -, -, -, -, -, -, -, e0, e1⟩ := idx_facts t
  show (cfg0.win 5).cut (grid0.coords t) ((dats m 0 c).after 5 t) = _
  rw [after0_5]
  unfold outsAt0
  funext y
  obtain ⟨p, q, rfl⟩ : ∃ (p : Fin 256) (q : Fin 128), y = ix2 p q := ⟨y 0, y 1, eq_ix2 y⟩
  have ht : t.val < 16 := Nat.lt_of_lt_of_eq t.isLt (show cfg0.N = 16 from N_0)
  refine (Cert.KernelIdeal.Body.out_apply c (grid0.coords t) (ms0_0 t) (hs0_0 t) (ms0_1 t) (hs0_1 t) (ms0_2 t) (hs0_2 t)
    (ms0_3 t) (hs0_3 t) (ms0_4 t) (hs0_4 t) (ms0_5 t) (hs0_5 t) scM0_0 (Memref.isWhole_whole _)
    (iblk m c 0 t) (iblk m c 1 t) (iblk m c 2 t) (iblk m c 3 t) (iblk m c 4 t) p q).trans ?_
  rw [View.read_apply]
  have hb1 : (fun h => (iblk m c 2 t : Vec Ideal S1x256 .f32) (ix2 (0 : Fin 1) h)) = bias1 m c := funext (blk_b1 m c t)
  have hw2 : (fun h => (iblk m c 3 t : Vec Ideal S256x1 .f32) (ix2 h (0 : Fin 1))) = weight2 m c := by
    rw [blk_w2]
  rw [hb1, hw2, blk_b2, blk_w1]
  have hi : (((cfg0.win 5).blk t).view.emb (ix2 p q) : S4096x128.Idx)
      = ix2 (⟨t.val * 256 + p.val, by have := p.isLt; omega⟩ : Fin 4096) q :=
    funext fun a => Fin.ext (by
      match a with
      | ⟨0, _⟩ => show win0_5.index t (0 : Fin 2) * 256 + 1 * p.val = t.val * 256 + p.val; rw [e0]; omega
      | ⟨1, _⟩ => show win0_5.index t (1 : Fin 2) * 128 + 1 * q.val = q.val; rw [e1]; omega)
  refine Eq.trans ?_ (congrArg (result m c) hi).symm
  exact entry_congr_rows _ _ _ _ _ _ p _ (fun i => blk_x m c t p i _ rfl) q

/-- An index of the array is in point `t`'s block iff each coordinate is in the block's range. -/
theorem mem_blk (t : Fin cfg0.N) (i : S4096x128.Idx) :
    i ∈ ((cfg0.win 5).blk t).view.set ↔ ∀ a : Fin 2, win0_5.index t a * S256x128.size a ≤ (i a).val ∧ (i a).val < win0_5.index t a * S256x128.size a + S256x128.size a := by
  show i ∈ ((View.whole main_v2).slice (win0_5.rect t)).set ↔ _
  rw [View.set_slice_whole, Rect.mem_set_unit]
  exact Iff.rfl

/-- The sixteen blocks cover the array: row `r` is in the block of point `r / 256`. -/
theorem cover (i : S4096x128.Idx) : ∃ t : Fin cfg0.N, (cfg0.win 5).flush t = true ∧ i ∈ ((cfg0.win 5).blk t).view.set := by
  have h0 : (i 0).val < 4096 := (i 0).isLt
  have h1 : (i 1).val < 128 := (i 1).isLt
  have hN : cfg0.N = 16 := N_0
  refine ⟨⟨(i 0).val / 256, by rw [hN]; omega⟩, flush0_5 _, ?_⟩
  obtain ⟨-, -, -, -, -, -, -, -, -, -, e0, e1⟩ := idx_facts ⟨(i 0).val / 256, by rw [hN]; omega⟩
  rw [mem_blk]
  intro a
  match a with
  | ⟨0, _⟩ =>
    show win0_5.index _ (0 : Fin 2) * 256 ≤ (i 0).val ∧ (i 0).val < win0_5.index _ (0 : Fin 2) * 256 + 256
    rw [e0]; dsimp only; omega
  | ⟨1, _⟩ =>
    show win0_5.index _ (1 : Fin 2) * 128 ≤ (i 1).val ∧ (i 1).val < win0_5.index _ (1 : Fin 2) * 128 + 128
    rw [e1]; omega

/-- The array after the launch. -/
theorem final (c : Dev nD) : (dats m 0 c).arrAt 5 cfg0.N = result m c :=
  (dats m 0 c).arrAt_eq_of_cover 5 (result m c) (fun t _ => flushed_eq m c t) cover

/-! ## The host's column of ones, and the run -/

/-- What both programs do last: a column of ones in front of the `[4096, 128]` array. -/
abbrev withOnes (cols : S4096x128.Idx → EReal) : S4096x129.Idx → EReal :=
  concatenate S4096x129 1 [⟨S4096x1, broadcastInDim S4096x1 ![] bcast_S_S4096x1 (constant (F := Ideal) S_ .f32 0x3F800000#32)⟩,
    ⟨S4096x128, cols⟩] concatenates_S4096x1_S4096x128_S4096x129_d1

theorem tail_eq (c : Dev nD) :
    Pipeline.afterTail₀ cfgs (dats m) 0 (V0 m) [hostOps1] c main_v4 = withOnes (result m c) := by
  unfold Pipeline.afterTail₀
  show StableHlo.after hostOps1 _ (Proc.devRef .tc main_v4) = _
  after_results
  rw [(Pipeline.withArrays_arr spec0 launch0.win.arr_inj c _ _ 5).trans (final m c)]

/-- The kernel's run: the result at `withOnes (result)`, the arguments unchanged. -/
theorem run : θ_run defs (onTc (τ := τ) (main (F := Ideal))) ⟨m, fun _ => 0, ρ⟩ (fun r => ∀ c : Dev nD,
      r.2.mem ((c.tc : Thread nD τ).loc main_v4) = withOnes (result m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v4 (Pipeline.mem_restRefs_of main_v4 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c))⟩)
    (run_main m ρ)

end Cert.KernelIdeal.Array

end
-- ==== Proof.LibFiniteReal.lean ====
/-
  Finite entries are real numbers — the part that does not depend on any one program.

  On the extended reals the absolute value `max x (-x)` is below `+∞` exactly when `x` is the image of a real number: at
  `⊤` it is `⊤`, and at `⊥` it is `-⊥ = ⊤` (which is also how an undefined value reads). The word `0x7F800000` denotes
  `+∞`. So where the comparison bit "`|X i| < +∞`" of a printed finiteness predicate is one, `X i` is real
  (`real_of_lt_inf`, over any shape), and where the `and` of those bits over every index of an array is one — the
  predicate's `jnp.all` — every entry of the array is real (`real_of_all`; `real_of_all_scalar` for rank zero).
-/
import Idealize.ShloMosaic.Lib.ReduceAll
import Idealize.ShloMosaic.Lib.Affine
import Idealize.ShloMosaic.Lib.ValueIdx
import Idealize.ShloMosaic.PureOps.Ideal
import Idealize.ShloMosaic.PureOps.Ideal.Laws

namespace Cert.Finite

open Idealize.ShloMosaic Idealize.SL.Sem

/-- The shape of rank zero has exactly one index. -/
instance subsingleton_scalar_idx : Subsingleton (⟨0, ![]⟩ : Shape).Idx :=
  ⟨fun a b => funext fun d => d.elim0⟩

/-- The word `0x7F800000` (sign 0, exponent all ones, fraction 0) denotes `+∞`. -/
theorem inf_word : Ideal.ofBits .f32 0x7F800000#32 = (⊤ : EReal) := by
  simp [Ideal.ofBits, Ideal.ieee]

/-- A one-bit word made from a Boolean is one only when the Boolean is true. -/
theorem eq_true_of_ofBool {b : Bool} (h : BitVec.ofBool b = 1#1) : b = true := by
  cases b
  · exact absurd h (by decide)
  · rfl

/-- An extended real whose absolute value `max x (-x)` is below `⊤` is a real number:
    at `x = ⊤` the maximum is `⊤`, and at `x = ⊥` it is `-⊥ = ⊤`. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The comparison bit "`|x| < +∞`" being one makes `x` a real number. -/
theorem real_of_cmp (x : EReal)
    (h : Ideal.cmp .olt (max x (-x)) (Ideal.ofBits .f32 0x7F800000#32) = 1#1) :
    ∃ r : ℝ, x = (r : EReal) := by
  rw [inf_word] at h
  have hb : BitVec.ofBool (decide (max x (-x) < ⊤)) = 1#1 := h
  exact real_of_abs_lt_top x (of_decide_eq_true (eq_true_of_ofBool hb))

/-- Elementwise, over any shape: where the bit "`|X i| < +∞`" (the bound a splat of the `+∞` word) is one,
    `X i` is a real number. -/
theorem real_of_lt_inf {s : Shape}
    (hb : Shape.BroadcastsInDim (⟨0, ![]⟩ : Shape) s (![] : Fin 0 → Fin s.rank))
    (X : FVec Ideal s .f32) (i : s.Idx)
    (h : cmpf .olt (Host.absf X)
          (broadcastInDim s ![] hb (constant (F := Ideal) (⟨0, ![]⟩ : Shape) .f32 0x7F800000#32)) i = 1#1) :
    ∃ r : ℝ, X i = (r : EReal) :=
  real_of_cmp (X i) h

/-- The same for an array of rank zero, whose bound is the `+∞` constant itself. -/
theorem real_of_lt_inf_scalar (X : FVec Ideal (⟨0, ![]⟩ : Shape) .f32) (i : (⟨0, ![]⟩ : Shape).Idx)
    (h : cmpf .olt (Host.absf X) (constant (F := Ideal) (⟨0, ![]⟩ : Shape) .f32 0x7F800000#32) i = 1#1) :
    ∃ r : ℝ, X i = (r : EReal) :=
  real_of_cmp (X i) h

/-- "All entries are finite", over any shape: if the `and` over every index of the bits "`|X i| < +∞`" is one,
    every entry of `X` is a real number. -/
theorem real_of_all {s : Shape} {axes : List (Fin s.rank)}
    (hb : Shape.BroadcastsInDim (⟨0, ![]⟩ : Shape) s (![] : Fin 0 → Fin s.rank))
    (hr : s.ReducesTo axes (⟨0, ![]⟩ : Shape)) (hu : 0 < (⟨0, ![]⟩ : Shape).numel)
    (X : FVec Ideal s .f32)
    (h : Host.reduce IntOp.andi
          (cmpf .olt (Host.absf X)
            (broadcastInDim s ![] hb (constant (F := Ideal) (⟨0, ![]⟩ : Shape) .f32 0x7F800000#32)))
          (constantI (⟨0, ![]⟩ : Shape) 1 1#1) hr hu ValueIdx.ix0 = 1#1)
    (i : s.Idx) : ∃ r : ℝ, X i = (r : EReal) :=
  real_of_lt_inf hb X i (Host.reduce_andi_all _ _ hr hu ValueIdx.ix0 h i)

/-- The same for an array of rank zero (the `and` runs over its one entry). -/
theorem real_of_all_scalar
    (hr : (⟨0, ![]⟩ : Shape).ReducesTo [] (⟨0, ![]⟩ : Shape)) (hu : 0 < (⟨0, ![]⟩ : Shape).numel)
    (X : FVec Ideal (⟨0, ![]⟩ : Shape) .f32)
    (h : Host.reduce IntOp.andi
          (cmpf .olt (Host.absf X) (constant (F := Ideal) (⟨0, ![]⟩ : Shape) .f32 0x7F800000#32))
          (constantI (⟨0, ![]⟩ : Shape) 1 1#1) hr hu ValueIdx.ix0 = 1#1)
    (i : (⟨0, ![]⟩ : Shape).Idx) : ∃ r : ℝ, X i = (r : EReal) :=
  real_of_lt_inf_scalar X i (Host.reduce_andi_all _ _ hr hu ValueIdx.ix0 h i)

/-- The `and` of two one-bit scalars is one only when both are. -/
theorem and_split {A B : IVec (⟨0, ![]⟩ : Shape) 1} (h : andi A B ValueIdx.ix0 = 1#1) :
    A ValueIdx.ix0 = 1#1 ∧ B ValueIdx.ix0 = 1#1 :=
  IntOp.andi_eq_one.1 h

end Cert.Finite
-- ==== Proof.Algebra.lean ====
/-
  The law that joins the two programs.

  The reference removes feature `q` from a row by multiplying the row with `1 − δ`, `δ` the indicator of `q`, before
  the product with the direct half of the weights, and finds the code's row by a product of `δ` with the code half:

      ∑ₖ (xₖ · (1 − δₖ)) · W₁[k, h]  +  ∑ₖ δₖ · W₁[128 + k, h]  +  b₁[h].

  The kernel forms the full product once and subtracts the one term, and reads the code's row directly:

      ∑ₖ xₖ · W₁[k, h]  −  x_q · W₁[q, h]  +  (W₁[128 + q, h] + b₁[h]).

  For REAL `x` and `W₁` these agree (`hidden_eq`): over the reals `x · (1 − δ) · w = x · w − δ · x · w` and a sum against
  an indicator is its one term. At an infinite entry they need not — `x_q · 0` is not `x_q − x_q` there — which is
  why the programs are compared on finite inputs. The bias may be any extended real: it is only re-associated.
-/
import proofs.«156938_j63264868270309_2_alg».proof.Proof.Spec
import proofs.«156938_j63264868270309_2_alg».proof.Proof.LibFiniteReal

noncomputable section

open scoped BigOperators

namespace Cert.FeatureGate

open Idealize.ShloMosaic Idealize.ShloMosaic.ValueIdx

/-- The word for one denotes the real number one. -/
theorem one_eq : one = ((1 : ℝ) : EReal) := by
  show Ideal.ofBits .f32 0x3F800000#32 = ((1 : ℝ) : EReal)
  simp [Ideal.ofBits, Ideal.ieee, -EReal.coe_mul]; norm_num

/-- The coercion of a finite sum of reals is the sum of the coercions. -/
theorem coe_sum {ι : Type*} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The indicator of feature `q`. -/
def ind (q k : Fin 128) : ℝ := if q = k then 1 else 0

/-- A row with feature `q` removed, against a column: the full product less the one term. -/
theorem masked_sum (a w : Fin 128 → ℝ) (q : Fin 128) :
    ∑ k, a k * (1 - ind q k) * w k = ∑ k, a k * w k - a q * w q := by
  have h : ∀ k, a k * (1 - ind q k) * w k = a k * w k - ind q k * (a k * w k) := fun k => by ring
  simp only [h, Finset.sum_sub_distrib]
  congr 1
  simp [ind, Finset.sum_ite_eq]

/-- The indicator against a column picks the column's entry. -/
theorem onehot_sum (w : Fin 128 → ℝ) (q : Fin 128) : ∑ k, ind q k * w k = w q := by
  simp [ind, Finset.sum_ite_eq]

/-- The reference's way of writing the hidden unit. -/
def hiddenRef {R : ℕ} (X : (⟨2, ![R, 128]⟩ : Shape).Idx → EReal) (W1 : (⟨2, ![256, 256]⟩ : Shape).Idx → EReal)
    (B1 : Fin 256 → EReal) (n : Fin R) (q : Fin 128) (h : Fin 256) : EReal :=
  (∑ k : Fin 128, (X (ix2 n k) * (one - ((ind q k : ℝ) : EReal))) * W1 (ix2 (lo k) h))
    + (∑ k : Fin 128, ((ind q k : ℝ) : EReal) * W1 (ix2 (hi k) h)) + B1 h

/-- On real features and weights the two ways agree. -/
theorem hidden_eq {R : ℕ} (X : (⟨2, ![R, 128]⟩ : Shape).Idx → EReal) (W1 : (⟨2, ![256, 256]⟩ : Shape).Idx → EReal)
    (B1 : Fin 256 → EReal) (hX : ∀ y, ∃ r : ℝ, X y = (r : EReal)) (hW : ∀ y, ∃ r : ℝ, W1 y = (r : EReal))
    (n : Fin R) (q : Fin 128) (h : Fin 256) :
    hiddenRef X W1 B1 n q h = hidden X W1 B1 n q h := by
  choose a ha using hX
  choose w hw using hW
  unfold hiddenRef hidden dense
  simp only [ha, hw, one_eq]
  simp only [← EReal.coe_sub, ← EReal.coe_mul, coe_sum, ← EReal.coe_add]
  rw [masked_sum (fun k => a (ix2 n k)) (fun k => w (ix2 (lo k) h)) q,
    onehot_sum (fun k => w (ix2 (hi k) h)) q, EReal.coe_add, add_assoc]

/-- The reference's way of writing the result's entry. -/
def entryRef {R : ℕ} (X : (⟨2, ![R, 128]⟩ : Shape).Idx → EReal) (W1 : (⟨2, ![256, 256]⟩ : Shape).Idx → EReal)
    (B1 W2 : Fin 256 → EReal) (b2 : EReal) (n : Fin R) (q : Fin 128) : EReal :=
  X (ix2 n q) * (one + ((∑ h : Fin 256, max (hiddenRef X W1 B1 n q h) zero * W2 h) + b2))

/-- On real features and weights it is the entry of Spec.lean. -/
theorem entry_eq {R : ℕ} (X : (⟨2, ![R, 128]⟩ : Shape).Idx → EReal) (W1 : (⟨2, ![256, 256]⟩ : Shape).Idx → EReal)
    (B1 W2 : Fin 256 → EReal) (b2 : EReal) (hX : ∀ y, ∃ r : ℝ, X y = (r : EReal)) (hW : ∀ y, ∃ r : ℝ, W1 y = (r : EReal))
    (n : Fin R) (q : Fin 128) :
    entryRef X W1 B1 W2 b2 n q = entry X W1 B1 W2 b2 n q := by
  unfold entryRef entry gate
  simp only [hidden_eq X W1 B1 hX hW]

end Cert.FeatureGate

end
-- ==== Proof.RefValue.lean ====
/-
  The reference, read at an index.

  The host program builds the 128 masked copies of `x` as one `[128, 4096, 128]` array (copy `q` is `x` times the
  row `1 − δ_q` of `1 − I`), multiplies them with the direct half of the first layer's weights, adds the row of
  `I · (code half)` and the bias, rectifies, multiplies with the second layer's weights, adds its bias, transposes
  to `[4096, 128]`, and forms `x · (1 + ·)`. Read at row `n` and feature `q`, stage by stage, this is the entry
  `entryRef` of Algebra.lean — the reference's own way of writing the hidden unit, no law used yet.
-/
import proofs.«156938_j63264868270309_2_alg».proof.Proof.Gen.ReferenceIdeal.Read
import proofs.«156938_j63264868270309_2_alg».proof.Proof.Algebra
import Idealize.ShloMosaic.Lib.ValueLayout

noncomputable section

open scoped BigOperators

namespace Cert.ReferenceIdeal.RefValue

open Idealize.ShloMosaic Idealize.ShloMosaic.ValueIdx Cert.ReferenceIdeal Cert.ReferenceIdeal.Gen Cert.ReferenceIdeal.Read Cert.FeatureGate

variable (x0 : (⟨S4096x128, .f32⟩ : BufTy).Contents (Elt Ideal)) (x1 : (⟨S256x256, .f32⟩ : BufTy).Contents (Elt Ideal)) (x2 : (⟨S256, .f32⟩ : BufTy).Contents (Elt Ideal)) (x3 : (⟨S256x1, .f32⟩ : BufTy).Contents (Elt Ideal)) (x4 : (⟨S1, .f32⟩ : BufTy).Contents (Elt Ideal))

/-! ## The identity matrix -/

/-- The comparison of a row number with a column number, as a float, is the indicator. -/
theorem bit_eq (q k : Fin 128) :
    FloatOps.uitofp (F := Ideal) .f32 (IntOp.cmpi .eq (IntOp.addi (BitVec.ofNat 32 q.val) 0#32) (BitVec.ofNat 32 k.val))
      = ((ind q k : ℝ) : EReal) := by
  show (((IntOp.cmpi .eq (IntOp.addi (BitVec.ofNat 32 q.val) 0#32) (BitVec.ofNat 32 k.val)).toNat : ℝ) : EReal) = _
  congr 1
  unfold ind IntOp.cmpi IntOp.addi
  by_cases hqk : q = k
  · subst hqk; simp
  · have hne : ¬ (BitVec.ofNat 32 q.val = BitVec.ofNat 32 k.val) := by
      intro e
      apply hqk; apply Fin.ext
      have e' := congrArg BitVec.toNat e
      simp only [BitVec.toNat_ofNat] at e'
      have := q.isLt; have := k.isLt
      omega
    simp [hqk, hne]

theorem eyeA_apply (q k : Fin 128) : val_main_v5 (F := Ideal) (ix2 q k) = ((ind q k : ℝ) : EReal) := by
  rw [val_main_v5_apply, val_main_v4_apply, val_main_v3_apply, val_main_v0_apply, val_main_v2_apply, val_main_c_apply,
    val_main_v1_apply]
  exact bit_eq q k

theorem eyeB_apply (q k : Fin 128) : val_main_v20 (F := Ideal) (ix2 q k) = ((ind q k : ℝ) : EReal) := by
  rw [val_main_v20_apply, val_main_v19_apply, val_main_v18_apply, val_main_v15_apply, val_main_v17_apply,
    val_main_c_0_apply, val_main_v16_apply]
  exact bit_eq q k

/-- The mask `1 − I`. -/
theorem mask_apply (q k : Fin 128) : val_main_v7 (F := Ideal) (ix2 q k) = one - ((ind q k : ℝ) : EReal) := by
  rw [val_main_v7_apply, val_main_v6_apply, val_main_cst_apply, eyeA_apply]
  rfl

/-! ## The first layer -/

/-- Copy `q` of `x` with feature `q` removed. -/
theorem masked_apply (q : Fin 128) (n : Fin 4096) (k : Fin 128) :
    val_main_v12 (F := Ideal) x0 (ix3 q n k) = x0 (ix2 n k) * (one - ((ind q k : ℝ) : EReal)) := by
  rw [val_main_v12_apply, val_main_v10_apply, val_main_v8_apply, val_main_v11_apply, val_main_v9_apply]
  have e1 : idx_main_v8 (idx_main_v10 (ix3 q n k)) = ix2 n k :=
    funext fun a => Fin.ext (by match a with | ⟨0, _⟩ => rfl | ⟨1, _⟩ => rfl)
  have e2 : idx_main_v9 (idx_main_v11 (ix3 q n k)) = ix2 q k :=
    funext fun a => Fin.ext (by match a with | ⟨0, _⟩ => rfl | ⟨1, _⟩ => rfl)
  rw [e1, e2, mask_apply]
  rfl

/-- The masked copies against the direct half of the weights. -/
theorem direct_apply (q : Fin 128) (n : Fin 4096) (h : Fin 256) :
    val_main_v14 (F := Ideal) x0 x1 (ix3 q n h)
      = ∑ k : Fin 128, (x0 (ix2 n k) * (one - ((ind q k : ℝ) : EReal))) * x1 (ix2 (lo k) h) := by
  rw [val_main_v14_apply]
  refine Finset.sum_congr rfl fun k _ => ?_
  have e1 : lidx_main_v14 (ix3 q n h) k = ix3 q n k :=
    funext fun a => Fin.ext (by match a with | ⟨0, _⟩ => rfl | ⟨1, _⟩ => rfl | ⟨2, _⟩ => rfl)
  have e2 : idx_main_v13 (ridx_main_v14 (ix3 q n h) k) = ix2 (lo k) h :=
    funext fun a => Fin.ext (by match a with | ⟨0, _⟩ => rfl | ⟨1, _⟩ => rfl)
  rw [e1, masked_apply, val_main_v13_apply, e2]

/-- The identity against the code half of the weights. -/
theorem code_apply (q : Fin 128) (h : Fin 256) :
    val_main_v22 (F := Ideal) x1 (ix2 q h) = ∑ k : Fin 128, ((ind q k : ℝ) : EReal) * x1 (ix2 (hi k) h) := by
  rw [val_main_v22_apply]
  refine Finset.sum_congr rfl fun k _ => ?_
  have e1 : lidx_main_v22 (ix2 q h) k = ix2 q k :=
    funext fun a => Fin.ext (by match a with | ⟨0, _⟩ => rfl | ⟨1, _⟩ => rfl)
  have e2 : idx_main_v21 (ridx_main_v22 (ix2 q h) k) = ix2 (hi k) h :=
    funext fun a => Fin.ext (by match a with | ⟨0, _⟩ => rfl | ⟨1, _⟩ => rfl)
  rw [e1, eyeB_apply, val_main_v21_apply, e2]

/-- The hidden unit before the rectifier. -/
theorem hidden_apply (q : Fin 128) (n : Fin 4096) (h : Fin 256) :
    val_main_v28 (F := Ideal) x0 x1 x2 (ix3 q n h) = hiddenRef x0 x1 (fun h => x2 (ix1 h)) n q h := by
  rw [val_main_v28_apply, val_main_v25_apply, val_main_v24_apply, val_main_v23_apply, val_main_v27_apply, val_main_v26_apply]
  have e1 : idx_main_v23 (idx_main_v24 (ix3 q n h)) = ix2 q h :=
    funext fun a => Fin.ext (by match a with | ⟨0, _⟩ => rfl | ⟨1, _⟩ => rfl)
  have e2 : idx_main_v26 (idx_main_v27 (ix3 q n h)) = ix1 h :=
    funext fun a => Fin.ext (by match a with | ⟨0, _⟩ => rfl)
  rw [e1, e2, direct_apply, code_apply]
  rfl

/-! ## The second layer and the result -/

/-- The gate, still as `[128, 4096]`. -/
theorem gate_apply (q : Fin 128) (n : Fin 4096) :
    val_main_v34 (F := Ideal) x0 x1 x2 x3 x4 (ix2 q n)
      = (∑ h : Fin 256, max (hiddenRef x0 x1 (fun h => x2 (ix1 h)) n q h) zero * x3 (ix2 h (0 : Fin 1))) + x4 (ix1 (0 : Fin 1)) := by
  rw [val_main_v34_apply, val_main_v31_apply, val_main_v33_apply, val_main_v30_apply]
  have e0 : idx_main_v31 (ix2 q n) = ix3 q n (0 : Fin 1) :=
    funext fun a => Fin.ext (by
      have hq := q.isLt; have hn := n.isLt
      match a with
      | ⟨0, _⟩ => show (q.val * 4096 + n.val) / 4096 = q.val; omega
      | ⟨1, _⟩ => show (q.val * 4096 + n.val) / 1 % 4096 = n.val; omega
      | ⟨2, _⟩ => rfl)
  rw [e0]
  refine congrArg₂ (· + ·) (Finset.sum_congr rfl fun h _ => ?_) ?_
  · have e1 : lidx_main_v30 (ix3 q n (0 : Fin 1)) h = ix3 q n h :=
      funext fun a => Fin.ext (by match a with | ⟨0, _⟩ => rfl | ⟨1, _⟩ => rfl | ⟨2, _⟩ => rfl)
    have e2 : ridx_main_v30 (ix3 q n (0 : Fin 1)) h = ix2 h (0 : Fin 1) :=
      funext fun a => Fin.ext (by match a with | ⟨0, _⟩ => rfl | ⟨1, _⟩ => rfl)
    rw [e1, e2, val_main_v29_apply, hidden_apply, val_main_call0_v0_apply, val_main_call0_cst_apply]
    rfl
  · unfold val_main_v32
    exact shapeCast_apply x4 shapeCasts_S1_S_ _ (ix1 (0 : Fin 1)) (by
      rw [Shape.rowMajor_val_one]
      exact (Nat.lt_one_iff.mp (S_.rowMajor _).isLt).symm)

/-- The result's entry at row `n`, feature `q`. -/
theorem cols_apply (n : Fin 4096) (q : Fin 128) :
    val_main_v38 (F := Ideal) x0 x1 x2 x3 x4 (ix2 n q)
      = entryRef x0 x1 (fun h => x2 (ix1 h)) (fun h => x3 (ix2 h (0 : Fin 1))) (x4 (ix1 (0 : Fin 1))) n q := by
  rw [val_main_v38_apply, val_main_v37_apply, val_main_v36_apply, val_main_cst_1_apply, val_main_v35_apply]
  have e : idx_main_v35 (ix2 n q) = ix2 q n :=
    funext fun a => Fin.ext (by match a with | ⟨0, _⟩ => rfl | ⟨1, _⟩ => rfl)
  rw [e, gate_apply]
  rfl

end Cert.ReferenceIdeal.RefValue

end
-- ==== Proof.FiniteInputs.lean ====
/-
  Finite inputs are real numbers.

  The precondition is the `and` of five bits, one per argument, each the `and` over the argument's entries of
  "`|entry| < +∞`". Where it is one, the first two bits are one, so every entry of `x` and of the first layer's weights
  is a real number — the two arrays the law of Algebra.lean needs real.
-/
import proofs.«156938_j63264868270309_2_alg».proof.Proof.Gen.Pre_finite_inputs
import proofs.«156938_j63264868270309_2_alg».proof.Proof.LibFiniteReal

noncomputable section

namespace Cert.Pre_finite_inputs.Finite

open Idealize.ShloMosaic Cert.Pre_finite_inputs Cert.Pre_finite_inputs.Facts Cert.Finite

/-- Under the precondition the features and the first layer's weights are real. -/
theorem real_inputs (X : FVec Ideal S4096x128 .f32) (W1 : FVec Ideal S256x256 .f32) (B1 : FVec Ideal S256 .f32)
    (W2 : FVec Ideal S256x1 .f32) (B2 : FVec Ideal S1 .f32)
    (h : fn (F := Ideal) X W1 B1 W2 B2 = fun _ => 1#1) :
    (∀ y, ∃ r : ℝ, X y = (r : EReal)) ∧ (∀ y, ∃ r : ℝ, W1 y = (r : EReal)) := by
  have h0 := congrFun h ValueIdx.ix0
  unfold fn fn_part1 at h0
  dsimp only at h0
  obtain ⟨h18, -⟩ := and_split h0
  obtain ⟨h13, -⟩ := and_split h18
  obtain ⟨h8, -⟩ := and_split h13
  obtain ⟨h3, h7⟩ := and_split h8
  exact ⟨real_of_all bcast_S_S4096x128 reducesTo_S4096x128_S_d0_1 h_S_ X h3,
    real_of_all bcast_S_S256x256 reducesTo_S256x256_S_d0_1 h_S_ W1 h7⟩

end Cert.Pre_finite_inputs.Finite

end
-- ==== Proof.lean ====
/-
  A gated feature map, `out[n, 0] = 1`, `out[n, 1 + q] = x[n, q] · (1 + g_q(x[n, ·]))`, where the gate `g_q` is a
  two-layer network evaluated on the row with feature `q` removed and a one-hot code of `q` appended.

  The reference evaluates all 128 removals literally: it multiplies the rows by `1 − I` and pushes the 128 masked
  copies through the first layer. The kernel forms the product of the unmasked row with the first layer once and
  corrects it by the one deleted term, `x·W − x_q·W[q, ·]`, sixteen features at a time, for blocks of 256 rows.

  * Spec.lean states the function (the kernel's arrangement of it); Algebra.lean proves the reference's arrangement
    equal to it on REAL features and weights — the one place the finiteness of the inputs is used.
  * ChunkValue / BlockValue / BodyValue read the kernel's body: a chunk of sixteen features, the eight chunks as one
    function of the block index, the output block. KernelArray puts the sixteen blocks together and reads the
    host's last step (a column of ones in front).
  * RefValue reads the reference stage by stage at an index; FiniteInputs turns the precondition into real entries.

  Both programs end with the same concatenation, so the two results are the same function `withOnes` of one array.
  The idealization changed no operation, so it preserves the kernel trivially; the frames are the generated ones
  (the reference's is its generated run with the result dropped).
-/
import proofs.«156938_j63264868270309_2_alg».proof.Defs
import proofs.«156938_j63264868270309_2_alg».proof.Proof.Gen.Kernel
import proofs.«156938_j63264868270309_2_alg».proof.Proof.Gen.Kernel.Skeleton
import proofs.«156938_j63264868270309_2_alg».proof.Proof.Gen.Kernel.Launch
import proofs.«156938_j63264868270309_2_alg».proof.Proof.Gen.Kernel.Points
import proofs.«156938_j63264868270309_2_alg».proof.Proof.Gen.Kernel.Frame
import proofs.«156938_j63264868270309_2_alg».proof.Proof.Gen.KernelIdeal
import proofs.«156938_j63264868270309_2_alg».proof.Proof.Gen.KernelIdeal.Skeleton
import proofs.«156938_j63264868270309_2_alg».proof.Proof.Gen.KernelIdeal.Launch
import proofs.«156938_j63264868270309_2_alg».proof.Proof.Gen.KernelIdeal.Points
import proofs.«156938_j63264868270309_2_alg».proof.Proof.Gen.KernelIdeal.Frame
import proofs.«156938_j63264868270309_2_alg».proof.Proof.Gen.ReferenceIdeal
import proofs.«156938_j63264868270309_2_alg».proof.Proof.Gen.ReferenceIdeal.Run
import proofs.«156938_j63264868270309_2_alg».proof.Proof.Gen.ReferenceIdeal.Read
import proofs.«156938_j63264868270309_2_alg».proof.Proof.Gen.Pre_finite_inputs
import proofs.«156938_j63264868270309_2_alg».proof.Proof.KernelArray
import proofs.«156938_j63264868270309_2_alg».proof.Proof.RefValue
import proofs.«156938_j63264868270309_2_alg».proof.Proof.FiniteInputs
import Idealize.ShloMosaic.Adequacy
import Idealize.ShloMosaic.Init

noncomputable section

namespace Cert.Proof

open Idealize.ShloMosaic Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- On finite inputs the reference's `[4096, 128]` array is the kernel's: entry by entry the reference's arrangement
    of the hidden unit equals the kernel's, the features and first-layer weights being real. -/
theorem cols_eq (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.ReferenceIdeal.Read.val_main_v38 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
        (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      = Cert.KernelIdeal.Array.result m c := by
  obtain ⟨hX, hW⟩ := Cert.Pre_finite_inputs.Finite.real_inputs _ _ _ _ _ (hpre c)
  funext y
  obtain ⟨n, q, rfl⟩ : ∃ (n : Fin 4096) (q : Fin 128), y = ix2 n q := ⟨y 0, y 1, eq_ix2 y⟩
  rw [Cert.ReferenceIdeal.RefValue.cols_apply]
  exact Cert.FeatureGate.entry_eq _ _ _ _ _ hX hW n q

theorem algebraic : Cert.algebraic_KernelIdeal_ReferenceIdeal := by
  intro m ρ m' ρ' hpre hagree
  refine ⟨fun c => Cert.KernelIdeal.Array.withOnes (Cert.KernelIdeal.Array.result m c), Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4⟩ := hagree c
  rw [Cert.ReferenceIdeal.Read.val_main_v40_eq, h0, h1, h2, h3, h4]
  show Cert.KernelIdeal.Array.withOnes (Cert.ReferenceIdeal.Read.val_main_v38 (F := Ideal) _ _ _ _ _) = _
  exact congrArg Cert.KernelIdeal.Array.withOnes (cols_eq m hpre c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
